-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 127
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000x128, .f32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x128, .f32⟩
  | .hbm, ⟨115, _⟩ => ⟨S1700000x1, .f32⟩
  | .hbm, ⟨116, _⟩ => ⟨S1700000x128, .f32⟩
  | .hbm, ⟨117, _⟩ => ⟨S1700000x128, .f32⟩
  | .hbm, ⟨118, _⟩ => ⟨S_, .f32⟩
  | .hbm, ⟨119, _⟩ => ⟨S100000x128, .f32⟩
  | .hbm, ⟨120, _⟩ => ⟨S1700000x1, .i32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S1x128, .f32⟩
  | .hbm, ⟨125, _⟩ => ⟨S1x64, .f32⟩
  | .hbm, ⟨126, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v90) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩
abbrev S100000x1 : Shape := ⟨2, ![100000, 1]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x1, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x64, .f32⟩
  | 19 => ⟨S100000x64, .f32⟩
  | 20 => ⟨S100000x64, .f32⟩
  | 21 => ⟨S_, .f32⟩
  | 22 => ⟨S100000, .f32⟩
  | 23 => ⟨S100000x1, .f32⟩
  | 24 => ⟨S100000x1, .f32⟩
  | 25 => ⟨S100000x64, .f32⟩
  | 26 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call4_cst : Ref sig .tc := ⟨.hbm, 140, rfl⟩
abbrev main_call4_v0 : Ref sig .tc := ⟨.hbm, 141, rfl⟩
abbrev main_call4_cst_0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_cst_1 : Ref sig .tc := ⟨.hbm, 149, rfl⟩
abbrev main_call4_v7 : Ref sig .tc := ⟨.hbm, 150, rfl⟩
abbrev main_call4_v8 : Ref sig .tc := ⟨.hbm, 151, rfl⟩
abbrev main_call4_v9 : Ref sig .tc := ⟨.hbm, 152, rfl⟩
abbrev main_call4_v10 : Ref sig .tc := ⟨.hbm, 153, rfl⟩
abbrev main_v100 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.GraphSide.lean ====
/-
  The graph side of one convolution layer, as ONE function of the transformed node features and the two edge-endpoint
  lists — the part of the computation that both programs run on the host with the very same operations.

  With the self-loops appended, edge e has a source s(e) and a destination d(e) (e ranging over the 1.6 million edges and
  then the 100000 loops). A node's degree is the number of edges arriving at it; its scale is deg^(-1/2) where the
  degree is positive and zero elsewhere. Edge e carries the source's features times scale(s(e)) · scale(d(e)), and a
  node's new features are the sum of what arrives at it. Negative endpoints are read from the end of the node list,
  as indexing does.  Nothing is proved about this function: it is only named, so that the two programs' values can be
  compared without opening it.
-/
import proofs.«150230_j59674275610738_1_alg».proof.KernelIdeal

noncomputable section

namespace Cert.Gcn.Graph

open Idealize.ShloMosaic Cert.KernelIdeal

variable {F : FTy → Type} [FloatOps F] [Cert.KernelIdeal.Facts]
open Cert.KernelIdeal.Facts₀ Cert.KernelIdeal.Facts

/-- One endpoint row of the edge list, as a list of 1.6 million node numbers. -/
def endpoints (r : Fin 2 → Nat) (hs : S2x1600000.Slices r S1x1600000) (e : (⟨S2x1600000, .i32⟩ : BufTy).Contents (Elt F)) :
    (⟨S1600000, .i32⟩ : BufTy).Contents (Elt F) :=
  shapeCast S1600000 (extractStridedSlice S1x1600000 r e hs) shapeCasts_S1x1600000_S1600000

/-- The edges' sources. -/
def sources (e : (⟨S2x1600000, .i32⟩ : BufTy).Contents (Elt F)) : (⟨S1600000, .i32⟩ : BufTy).Contents (Elt F) :=
  endpoints ![0, 0] slices_S2x1600000_S1x1600000_0_0 e

/-- The edges' destinations. -/
def targets (e : (⟨S2x1600000, .i32⟩ : BufTy).Contents (Elt F)) : (⟨S1600000, .i32⟩ : BufTy).Contents (Elt F) :=
  endpoints ![1, 0] slices_S2x1600000_S1x1600000_1_0 e

/-- An endpoint list with the 100000 self-loops appended. -/
def withLoops (v : (⟨S1600000, .i32⟩ : BufTy).Contents (Elt F)) : (⟨S1700000, .i32⟩ : BufTy).Contents (Elt F) :=
  concatenate S1700000 0 [⟨S1600000, v⟩, ⟨S100000, (iotaInDim S100000 32 0 : (⟨S100000, .i32⟩ : BufTy).Contents (Elt F))⟩]
    concatenates_S1600000_S100000_S1700000_d0

/-- A node list as a one-column index table. -/
def column (s : (⟨S1700000, .i32⟩ : BufTy).Contents (Elt F)) : (⟨S1700000x1, .i32⟩ : BufTy).Contents (Elt F) :=
  broadcastInDim S1700000x1 ![0] bcast_S1700000_S1700000x1_0 s

/-- Negative node numbers counted from the end. -/
def wrapped (s : (⟨S1700000, .i32⟩ : BufTy).Contents (Elt F)) : (⟨S1700000, .i32⟩ : BufTy).Contents (Elt F) :=
  select (cmpi .slt s (broadcastInDim S1700000 ![] bcast_S_S1700000 (constantI S_ 32 0#32 : (⟨S_, .i32⟩ : BufTy).Contents (Elt F))))
    (addi s (broadcastInDim S1700000 ![] bcast_S_S1700000 (constantI S_ 32 100000#32 : (⟨S_, .i32⟩ : BufTy).Contents (Elt F)))) s

/-- The number of edges arriving at each node. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32 : (⟨S_, .f32⟩ : BufTy).Contents (Elt F)))
    (column d)
    (broadcastInDim S1700000 ![] bcast_S_S1700000 (constant S_ .f32 0x3F800000#32 : (⟨S_, .f32⟩ : BufTy).Contents (Elt F)))

/-- deg^(-1/2) where the degree is positive, zero elsewhere. -/
def scale (d : (⟨S1700000, .i32⟩ : BufTy).Contents (Elt F)) : (⟨S100000, .f32⟩ : BufTy).Contents (Elt F) :=
  select (cmpf .ogt (degree d) (broadcastInDim S100000 ![] bcast_S_S100000 (constant S_ .f32 0x00000000#32 : (⟨S_, .f32⟩ : BufTy).Contents (Elt F))))
    (Host.rsqrt (degree d))
    (broadcastInDim S100000 ![] bcast_S_S100000 (id (constant S_ .f32 0x00000000#32 : (⟨S_, .f32⟩ : BufTy).Contents (Elt F))))

/-- Each edge's weight: the scale at its source times the scale at its destination. -/
def edgeWeight (s d : (⟨S1700000, .i32⟩ : BufTy).Contents (Elt F)) : (⟨S1700000, .f32⟩ : BufTy).Contents (Elt F) :=
  mulf (Host.gather gather_S100000_S1700000x1_S1700000_n_0_n_n_0_1_1 (scale d) (column (wrapped s)))
    (Host.gather gather_S100000_S1700000x1_S1700000_n_0_n_n_0_1_1 (scale d) (column (wrapped d)))

/-- The layer's aggregation over the edges `s → d` (loops included) of the features `h`. -/
def aggregateOver (h : (⟨S100000x128, .f32⟩ : BufTy).Contents (Elt F)) (s d : (⟨S1700000, .i32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32 : (⟨S_, .f32⟩ : BufTy).Contents (Elt F)))
    (column d)
    (mulf (Host.gather gather_S100000x128_S1700000x1_S1700000x128_1_0_n_n_0_1_1128 h (column (wrapped s)))
      (broadcastInDim S1700000x128 ![0, 1] bcast_S1700000x1_S1700000x128_0_1
        (broadcastInDim S1700000x1 ![0] bcast_S1700000_S1700000x1_0 (edgeWeight s d))))

/-- The aggregation over the edge list's endpoints with the self-loops appended. -/
def aggregate (h : (⟨S100000x128, .f32⟩ : BufTy).Contents (Elt F)) (v1 v3 : (⟨S1600000, .i32⟩ : BufTy).Contents (Elt F)) :
    (⟨S100000x128, .f32⟩ : BufTy).Contents (Elt F) :=
  aggregateOver h (withLoops v1) (withLoops v3)

end Cert.Gcn.Graph

end
-- ==== Proof.KernelStretches.lean ====
/-
  What the kernel program's stretches of host operations leave in the buffers the kernel launches read, from ANY
  contents `X` of the buffers before the stretch — each stretch's operations composed:

  * the first stretch cuts the edge list into the edges' sources and destinations;
  * the stretch after each matrix product aggregates the product over the edges (the graph side of the layer, one named
    function) and views the layer's bias vector as a row;
  * the last stretch views the head's two bias vectors as rows;
  * and a stretch leaves untouched every buffer none of its operations writes.

  All of it holds for any float values: only the operations' dataflow is read here.
-/
import proofs.«150230_j59674275610738_1_alg».proof.Proof.Gen.KernelIdeal.Launch
import proofs.«150230_j59674275610738_1_alg».proof.Proof.GraphSide
import Idealize.ShloMosaic.Lib.StableHlo.Run

set_option maxRecDepth 16384

noncomputable section

namespace Cert.Gcn.Stretches

open Cert.KernelIdeal Cert.KernelIdeal.Gen
open Idealize.ShloMosaic Idealize.ShloMosaic.TcCoe Idealize.ShloMosaic.Tactic Idealize.SL.Sem Idealize.ShloMosaic.StableHlo
open Cert.KernelIdeal.Facts₀ Cert.KernelIdeal.Facts
open Cert.Gcn Cert.Gcn.Graph

variable {F : FTy → Type} [FloatOps F]

/-! ## The three kinds of host stretch, from ANY contents `X` -/

/-- The first stretch cuts the edge list into its sources … -/
theorem sources_after (X : Valuation τ sig (Elt F)) :
    StableHlo.after hostOps0 X (Proc.devRef .tc main_v1) = sources (X (Proc.devRef .tc main_arg1)) := by
  simp only [hostOps0]; after_results_simp; rfl

/-- … and its destinations. -/
theorem targets_after (X : Valuation τ sig (Elt F)) :
    StableHlo.after hostOps0 X (Proc.devRef .tc main_v3) = targets (X (Proc.devRef .tc main_arg1)) := by
  simp only [hostOps0]; after_results_simp; rfl

/-- The stretch between the first product and the first bias step aggregates the product over the edges … -/
theorem aggregate1_after (X : Valuation τ sig (Elt F)) :
    StableHlo.after hostOps1_2 (StableHlo.after hostOps1_1 (StableHlo.after hostOps1 X)) (Proc.devRef .tc main_v43)
      = aggregate (X (Proc.devRef .tc main_v4)) (X (Proc.devRef .tc main_v1)) (X (Proc.devRef .tc main_v3)) := by
  simp only [hostOps1, hostOps1_1, hostOps1_2]; after_results_simp; rfl

/-- … and views the first bias vector as a row. -/
theorem biasRow1_after (X : Valuation τ sig (Elt F)) :
    StableHlo.after hostOps1_2 (StableHlo.after hostOps1_1 (StableHlo.after hostOps1 X)) (Proc.devRef .tc main_v44)
      = shapeCast S1x128 (X (Proc.devRef .tc main_arg3)) Facts₀.shapeCasts_S128_S1x128 := by
  simp only [hostOps1, hostOps1_1, hostOps1_2]; after_results_simp; rfl

/-- The same stretch after the second product … -/
theorem aggregate2_after (X : Valuation τ sig (Elt F)) :
    StableHlo.after hostOps3_2 (StableHlo.after hostOps3_1 (StableHlo.after hostOps3 X)) (Proc.devRef .tc main_v85)
      = aggregate (X (Proc.devRef .tc main_v46)) (X (Proc.devRef .tc main_v1)) (X (Proc.devRef .tc main_v3)) := by
  simp only [hostOps3, hostOps3_1, hostOps3_2]; after_results_simp; rfl

/-- … with the second bias vector as a row. -/
theorem biasRow2_after (X : Valuation τ sig (Elt F)) :
    StableHlo.after hostOps3_2 (StableHlo.after hostOps3_1 (StableHlo.after hostOps3 X)) (Proc.devRef .tc main_v86)
      = shapeCast S1x128 (X (Proc.devRef .tc main_arg5)) Facts₀.shapeCasts_S128_S1x128 := by
  simp only [hostOps3, hostOps3_1, hostOps3_2]; after_results_simp; rfl

/-- The last stretch views the head's two bias vectors as rows. -/
theorem biasRow3_after (X : Valuation τ sig (Elt F)) :
    StableHlo.after hostOps4 X (Proc.devRef .tc main_v88) = shapeCast S1x128 (X (Proc.devRef .tc main_arg7)) Facts₀.shapeCasts_S128_S1x128 := by
  simp only [hostOps4]; after_results_simp; rfl
theorem biasRow4_after (X : Valuation τ sig (Elt F)) :
    StableHlo.after hostOps4 X (Proc.devRef .tc main_v89) = shapeCast S1x64 (X (Proc.devRef .tc main_arg9)) Facts₀.shapeCasts_S64_S1x64 := by
  simp only [hostOps4]; after_results_simp; rfl

/-! ## What the stretches leave untouched -/

theorem kept0_arg0 (X : Valuation τ sig (Elt F)) :
    StableHlo.after hostOps0 (X) (Proc.devRef .tc main_arg0) = X (Proc.devRef .tc main_arg0) := by
  simp only [hostOps0]; after_results_simp
theorem kept0_arg2 (X : Valuation τ sig (Elt F)) :
    StableHlo.after hostOps0 (X) (Proc.devRef .tc main_arg2) = X (Proc.devRef .tc main_arg2) := by
  simp only [hostOps0]; after_results_simp
theorem kept0_arg3 (X : Valuation τ sig (Elt F)) :
    StableHlo.after hostOps0 (X) (Proc.devRef .tc main_arg3) = X (Proc.devRef .tc main_arg3) := by
  simp only [hostOps0]; after_results_simp
theorem kept0_arg4 (X : Valuation τ sig (Elt F)) :
    StableHlo.after hostOps0 (X) (Proc.devRef .tc main_arg4) = X (Proc.devRef .tc main_arg4) := by
  simp only [hostOps0]; after_results_simp
theorem kept0_arg5 (X : Valuation τ sig (Elt F)) :
    StableHlo.after hostOps0 (X) (Proc.devRef .tc main_arg5) = X (Proc.devRef .tc main_arg5) := by
  simp only [hostOps0]; after_results_simp
theorem kept1_arg4 (X : Valuation τ sig (Elt F)) :
    StableHlo.after hostOps1_2 (StableHlo.after hostOps1_1 (StableHlo.after hostOps1 (X))) (Proc.devRef .tc main_arg4) = X (Proc.devRef .tc main_arg4) := by
  simp only [hostOps1, hostOps1_1, hostOps1_2]; after_results_simp
theorem kept1_arg5 (X : Valuation τ sig (Elt F)) :
    StableHlo.after hostOps1_2 (StableHlo.after hostOps1_1 (StableHlo.after hostOps1 (X))) (Proc.devRef .tc main_arg5) = X (Proc.devRef .tc main_arg5) := by
  simp only [hostOps1, hostOps1_1, hostOps1_2]; after_results_simp
theorem kept1_v1 (X : Valuation τ sig (Elt F)) :
    StableHlo.after hostOps1_2 (StableHlo.after hostOps1_1 (StableHlo.after hostOps1 (X))) (Proc.devRef .tc main_v1) = X (Proc.devRef .tc main_v1) := by
  simp only [hostOps1, hostOps1_1, hostOps1_2]; after_results_simp
theorem kept1_v3 (X : Valuation τ sig (Elt F)) :
    StableHlo.after hostOps1_2 (StableHlo.after hostOps1_1 (StableHlo.after hostOps1 (X))) (Proc.devRef .tc main_v3) = X (Proc.devRef .tc main_v3) := by
  simp only [hostOps1, hostOps1_1, hostOps1_2]; after_results_simp
theorem kept4_v87 (X : Valuation τ sig (Elt F)) :
    StableHlo.after hostOps4 (X) (Proc.devRef .tc main_v87) = X (Proc.devRef .tc main_v87) := by
  simp only [hostOps4]; after_results_simp
theorem kept4_arg6 (X : Valuation τ sig (Elt F)) :
    StableHlo.after hostOps4 (X) (Proc.devRef .tc main_arg6) = X (Proc.devRef .tc main_arg6) := by
  simp only [hostOps4]; after_results_simp
theorem kept4_arg7 (X : Valuation τ sig (Elt F)) :
    StableHlo.after hostOps4 (X) (Proc.devRef .tc main_arg7) = X (Proc.devRef .tc main_arg7) := by
  simp only [hostOps4]; after_results_simp
theorem kept4_arg8 (X : Valuation τ sig (Elt F)) :
    StableHlo.after hostOps4 (X) (Proc.devRef .tc main_arg8) = X (Proc.devRef .tc main_arg8) := by
  simp only [hostOps4]; after_results_simp
theorem kept4_arg9 (X : Valuation τ sig (Elt F)) :
    StableHlo.after hostOps4 (X) (Proc.devRef .tc main_arg9) = X (Proc.devRef .tc main_arg9) := by
  simp only [hostOps4]; after_results_simp

end Cert.Gcn.Stretches

end
-- ==== Proof.GcnSpec.lean ====
/-
  The arrays the five kernel launches of the two-layer graph convolution leave behind, each as ONE function of the
  arrays it reads, entry by entry, at the ideal values (extended reals, exact operations).

  * A node-feature array times a weight array: entry (p, o) is the sum over k of x(p, k) · w(k, o)  (`mm`).
  * A bias row added to every row, then the maximum with zero  (`biasRelu`).
  * The classifier head: two affine layers (product plus bias row) and then, along every row, the logarithm of the
    softmax — every entry minus the row's maximum, minus the logarithm of the row's sum of exponentials of those
    shifted entries  (`head`).  The row's maximum is the fold of `max` over the row from −∞.

  Nothing here mentions a program: both the kernel's blocks and the reference's whole-array operations are shown to be
  these functions.
-/
import Idealize.ShloMosaic.Lib.ValueIdx
import Idealize.ShloMosaic.PureOps.Ideal

noncomputable section

open scoped BigOperators

namespace Cert.Gcn

open Idealize.ShloMosaic Idealize.ShloMosaic.ValueIdx

variable {n a b c : ℕ}

/-- Entry (p, o) of the product of an n×a array with an a×b array. -/
def dotAt (L : FVec Ideal ⟨2, ![n, a]⟩ .f32) (R : FVec Ideal ⟨2, ![a, b]⟩ .f32) (p : Fin n) (o : Fin b) : EReal :=
  ∑ k : Fin a, L (ix2 p k) * R (ix2 k o)

/-- The product, as an array. -/
def mm (L : FVec Ideal ⟨2, ![n, a]⟩ .f32) (R : FVec Ideal ⟨2, ![a, b]⟩ .f32) : FVec Ideal ⟨2, ![n, b]⟩ .f32 :=
  fun i => dotAt L R ⟨(i 0).val, (i 0).isLt⟩ ⟨(i 1).val, (i 1).isLt⟩

theorem mm_apply (L : FVec Ideal ⟨2, ![n, a]⟩ .f32) (R : FVec Ideal ⟨2, ![a, b]⟩ .f32) (p : Fin n) (o : Fin b) :
    mm L R (ix2 p o) = dotAt L R p o := rfl

/-- The bias row added to every row, then the maximum with zero. -/
def biasRelu (h : FVec Ideal ⟨2, ![n, b]⟩ .f32) (bias : FVec Ideal ⟨2, ![1, b]⟩ .f32) : FVec Ideal ⟨2, ![n, b]⟩ .f32 :=
  fun i => max (h i + bias (ix2 (0 : Fin 1) ⟨(i 1).val, (i 1).isLt⟩)) (Ideal.ofBits .f32 0x00000000#32)

theorem biasRelu_apply (h : FVec Ideal ⟨2, ![n, b]⟩ .f32) (bias : FVec Ideal ⟨2, ![1, b]⟩ .f32) (p : Fin n) (o : Fin b) :
    biasRelu h bias (ix2 p o) = max (h (ix2 p o) + bias (ix2 (0 : Fin 1) o)) (Ideal.ofBits .f32 0x00000000#32) := rfl

/-- Entry (p, o) of an affine layer: the product plus the bias row. -/
def affineAt (h : FVec Ideal ⟨2, ![n, a]⟩ .f32) (w : FVec Ideal ⟨2, ![a, b]⟩ .f32) (bias : FVec Ideal ⟨2, ![1, b]⟩ .f32)
    (p : Fin n) (o : Fin b) : EReal :=
  dotAt h w p o + bias (ix2 (0 : Fin 1) o)

/-- The affine layer, as an array. -/
def affine (h : FVec Ideal ⟨2, ![n, a]⟩ .f32) (w : FVec Ideal ⟨2, ![a, b]⟩ .f32) (bias : FVec Ideal ⟨2, ![1, b]⟩ .f32) :
    FVec Ideal ⟨2, ![n, b]⟩ .f32 :=
  fun i => affineAt h w bias ⟨(i 0).val, (i 0).isLt⟩ ⟨(i 1).val, (i 1).isLt⟩

theorem affine_apply (h : FVec Ideal ⟨2, ![n, a]⟩ .f32) (w : FVec Ideal ⟨2, ![a, b]⟩ .f32)
    (bias : FVec Ideal ⟨2, ![1, b]⟩ .f32) (p : Fin n) (o : Fin b) :
    affine h w bias (ix2 p o) = affineAt h w bias p o := rfl

/-- A row's maximum: the fold of `max` over the row, from −∞. -/
def rowMax (z : FVec Ideal ⟨2, ![n, b]⟩ .f32) (p : Fin n) : EReal :=
  (Finset.univ : Finset (Fin b)).fold max (Ideal.ofBits .f32 0xFF800000#32) (fun k => z (ix2 p k))

/-- An entry minus its row's maximum. -/
def shifted (z : FVec Ideal ⟨2, ![n, b]⟩ .f32) (p : Fin n) (o : Fin b) : EReal :=
  z (ix2 p o) - rowMax z p

/-- Entry (p, o) of the logarithm of the row-wise softmax. -/
def logSoftmaxAt (z : FVec Ideal ⟨2, ![n, b]⟩ .f32) (p : Fin n) (o : Fin b) : EReal :=
  shifted z p o - Ideal.log (∑ k : Fin b, Ideal.exp (shifted z p k))

/-- The logarithm of the row-wise softmax, as an array. -/
def logSoftmax (z : FVec Ideal ⟨2, ![n, b]⟩ .f32) : FVec Ideal ⟨2, ![n, b]⟩ .f32 :=
  fun i => logSoftmaxAt z ⟨(i 0).val, (i 0).isLt⟩ ⟨(i 1).val, (i 1).isLt⟩

theorem logSoftmax_apply (z : FVec Ideal ⟨2, ![n, b]⟩ .f32) (p : Fin n) (o : Fin b) :
    logSoftmax z (ix2 p o) = logSoftmaxAt z p o := rfl

/-- The classifier head: two affine layers, then the logarithm of the row-wise softmax. -/
def head (h : FVec Ideal ⟨2, ![n, a]⟩ .f32) (w1 : FVec Ideal ⟨2, ![a, b]⟩ .f32) (b1 : FVec Ideal ⟨2, ![1, b]⟩ .f32)
    (w2 : FVec Ideal ⟨2, ![b, c]⟩ .f32) (b2 : FVec Ideal ⟨2, ![1, c]⟩ .f32) : FVec Ideal ⟨2, ![n, c]⟩ .f32 :=
  logSoftmax (affine (affine h w1 b1) w2 b2)

end Cert.Gcn

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.HostLayers.lean ====
/-
  The reference's whole-array host operations, read as the layer functions of the specification, at the ideal values.

  * a vector viewed as a one-row array, by either layout step that produces it (a unit-axis view, or a spread along a
    new leading axis), is the row `asRow v`;
  * the host's matrix product is `mm`; the product plus a bias row spread over all rows is `affine`; a bias row added
    and the maximum with a zero array taken is `biasRelu`;
  * a vector spread as a column, and a column spread along the rows, read at an entry; −∞ is the least extended real.
-/
import Idealize.ShloMosaic.Lib.ValueIdx
import Idealize.ShloMosaic.Lib.Pipeline.Value
import Idealize.ShloMosaic.PureOps.Ideal.Laws
import proofs.«150230_j59674275610738_1_alg».proof.Proof.GcnSpec
import proofs.«150230_j59674275610738_1_alg».proof.Proof.LibPlainDot

noncomputable section

open scoped BigOperators

namespace Cert.Gcn

open Idealize.ShloMosaic Idealize.ShloMosaic.ValueIdx

variable {n a b : ℕ}

/-- A vector as a one-row array. -/
def asRow (v : FVec Ideal ⟨1, ![b]⟩ .f32) : FVec Ideal ⟨2, ![1, b]⟩ .f32 :=
  fun i => v (ix1 ⟨(i 1).val, (i 1).isLt⟩)

theorem asRow_apply (v : FVec Ideal ⟨1, ![b]⟩ .f32) (u : Fin 1) (o : Fin b) : asRow v (ix2 u o) = v (ix1 o) := rfl

/-- The unit-axis view of a vector is its row. -/
theorem shapeCast_row (v : FVec Ideal ⟨1, ![b]⟩ .f32) (h : (⟨1, ![b]⟩ : Shape).ShapeCasts ⟨2, ![1, b]⟩) :
    shapeCast ⟨2, ![1, b]⟩ v h = asRow v := by
  funext i
  refine (shapeCast_addUnit_apply ![b] v h i).trans (congrArg v ?_)
  funext ax
  match ax with
  | ⟨0, _⟩ => rfl

/-- The spread of a vector along a new leading unit axis is its row. -/
theorem broadcastInDim_row (v : FVec Ideal ⟨1, ![b]⟩ .f32)
    (h : (⟨1, ![b]⟩ : Shape).BroadcastsInDim ⟨2, ![1, b]⟩ (![1] : Fin 1 → Fin 2)) :
    broadcastInDim ⟨2, ![1, b]⟩ ![1] h v = asRow v := by
  funext i
  refine broadcastInDim_apply _ h v i (ix1 ⟨(i 1).val, (i 1).isLt⟩) fun ax => ?_
  match ax with
  | ⟨0, _⟩ =>
    show (i 1).val = if b = 1 then 0 else (i 1).val
    split
    · have := idx2_lt1 i; omega
    · rfl

/-- A one-row array spread over `n` rows reads, at (p, o), the row at (0, o). -/
theorem broadcastInDim_rows_apply (r : FVec Ideal ⟨2, ![1, b]⟩ .f32)
    (h : (⟨2, ![1, b]⟩ : Shape).BroadcastsInDim ⟨2, ![n, b]⟩ (![0, 1] : Fin 2 → Fin 2)) (p : Fin n) (o : Fin b) :
    broadcastInDim ⟨2, ![n, b]⟩ ![0, 1] h r (ix2 p o) = r (ix2 (0 : Fin 1) o) := by
  refine broadcastInDim_apply _ h r (ix2 p o) (ix2 (0 : Fin 1) o) fun ax => ?_
  match ax with
  | ⟨0, _⟩ => show (0 : ℕ) = if (1 : ℕ) = 1 then 0 else p.val; rw [if_pos rfl]
  | ⟨1, _⟩ =>
    show o.val = if b = 1 then 0 else o.val
    split
    · have := o.isLt; omega
    · rfl

/-- A scalar spread over an array reads the scalar everywhere. -/
theorem broadcastInDim_scalar_apply {s : Shape} (x : FVec Ideal ⟨0, ![]⟩ .f32)
    (h : (⟨0, ![]⟩ : Shape).BroadcastsInDim s (![] : Fin 0 → Fin s.rank)) (i : s.Idx) :
    broadcastInDim s ![] h x i = x ix0 :=
  broadcastInDim_apply _ h x i ix0 fun ax => ax.elim0

/-- The host's product is `mm`. -/
theorem host_dot (D : DotDims ⟨2, ![n, a]⟩ ⟨2, ![a, b]⟩ ⟨2, ![n, b]⟩) (hD : D = DotDims.plain n a b)
    (prec : Option ContractPrecision) (L : FVec Ideal ⟨2, ![n, a]⟩ .f32) (R : FVec Ideal ⟨2, ![a, b]⟩ .f32) :
    Host.dotGeneral D prec L R = mm L R := by
  subst hD
  funext i
  obtain ⟨p, o, rfl⟩ : ∃ (p : Fin n) (o : Fin b), i = ix2 p o := ⟨i 0, i 1, eq_ix2 i⟩
  exact Cert.LibPlainDot.dotGeneral_apply prec L R p o

/-- The host's product plus a bias vector spread over all rows is the affine layer. -/
theorem host_affine (D : DotDims ⟨2, ![n, a]⟩ ⟨2, ![a, b]⟩ ⟨2, ![n, b]⟩) (hD : D = DotDims.plain n a b)
    (prec : Option ContractPrecision) (L : FVec Ideal ⟨2, ![n, a]⟩ .f32) (R : FVec Ideal ⟨2, ![a, b]⟩ .f32)
    (v : FVec Ideal ⟨1, ![b]⟩ .f32)
    (h1 : (⟨1, ![b]⟩ : Shape).BroadcastsInDim ⟨2, ![1, b]⟩ (![1] : Fin 1 → Fin 2))
    (h2 : (⟨2, ![1, b]⟩ : Shape).BroadcastsInDim ⟨2, ![n, b]⟩ (![0, 1] : Fin 2 → Fin 2)) :
    addf (Host.dotGeneral D prec L R) (broadcastInDim ⟨2, ![n, b]⟩ ![0, 1] h2 (broadcastInDim ⟨2, ![1, b]⟩ ![1] h1 v))
      = affine L R (asRow v) := by
  rw [host_dot D hD, broadcastInDim_row]
  funext i
  obtain ⟨p, o, rfl⟩ : ∃ (p : Fin n) (o : Fin b), i = ix2 p o := ⟨i 0, i 1, eq_ix2 i⟩
  show mm L R (ix2 p o) + broadcastInDim ⟨2, ![n, b]⟩ ![0, 1] h2 (asRow v) (ix2 p o) = affineAt L R (asRow v) p o
  rw [broadcastInDim_rows_apply]
  rfl

/-- A bias vector spread over all rows and added, then the maximum with the zero array, is `biasRelu`. -/
theorem host_biasRelu (A : FVec Ideal ⟨2, ![n, b]⟩ .f32) (v : FVec Ideal ⟨1, ![b]⟩ .f32)
    (h1 : (⟨1, ![b]⟩ : Shape).BroadcastsInDim ⟨2, ![1, b]⟩ (![1] : Fin 1 → Fin 2))
    (h2 : (⟨2, ![1, b]⟩ : Shape).BroadcastsInDim ⟨2, ![n, b]⟩ (![0, 1] : Fin 2 → Fin 2))
    (h0 : (⟨0, ![]⟩ : Shape).BroadcastsInDim ⟨2, ![n, b]⟩ (![] : Fin 0 → Fin 2)) :
    maximumf (addf A (broadcastInDim ⟨2, ![n, b]⟩ ![0, 1] h2 (broadcastInDim ⟨2, ![1, b]⟩ ![1] h1 v)))
        (broadcastInDim ⟨2, ![n, b]⟩ ![] h0 (constant (F := Ideal) ⟨0, ![]⟩ .f32 0x00000000#32))
      = biasRelu A (asRow v) := by
  rw [broadcastInDim_row]
  funext i
  obtain ⟨p, o, rfl⟩ : ∃ (p : Fin n) (o : Fin b), i = ix2 p o := ⟨i 0, i 1, eq_ix2 i⟩
  show max (A (ix2 p o) + broadcastInDim ⟨2, ![n, b]⟩ ![0, 1] h2 (asRow v) (ix2 p o))
      (broadcastInDim ⟨2, ![n, b]⟩ ![] h0 (constant (F := Ideal) ⟨0, ![]⟩ .f32 0x00000000#32) (ix2 p o)) = _
  rw [broadcastInDim_rows_apply, broadcastInDim_scalar_apply]
  rfl

/-! ## Columns, and the least extended real -/

/-- A vector spread as a column reads, at (p, u), the vector at p. -/
theorem broadcastInDim_col_apply (v : FVec Ideal ⟨1, ![n]⟩ .f32)
    (h : (⟨1, ![n]⟩ : Shape).BroadcastsInDim ⟨2, ![n, 1]⟩ (![0] : Fin 1 → Fin 2)) (p : Fin n) (u : Fin 1) :
    broadcastInDim ⟨2, ![n, 1]⟩ ![0] h v (ix2 p u) = v (ix1 p) := by
  refine broadcastInDim_apply _ h v (ix2 p u) (ix1 p) fun ax => ?_
  match ax with
  | ⟨0, _⟩ =>
    show p.val = if n = 1 then 0 else p.val
    split
    · have := p.isLt; omega
    · rfl

/-- A column spread along the rows reads, at (p, o), the column at (p, 0). -/
theorem broadcastInDim_cols_apply (col : FVec Ideal ⟨2, ![n, 1]⟩ .f32)
    (h : (⟨2, ![n, 1]⟩ : Shape).BroadcastsInDim ⟨2, ![n, b]⟩ (![0, 1] : Fin 2 → Fin 2)) (p : Fin n) (o : Fin b) :
    broadcastInDim ⟨2, ![n, b]⟩ ![0, 1] h col (ix2 p o) = col (ix2 p (0 : Fin 1)) := by
  refine broadcastInDim_apply _ h col (ix2 p o) (ix2 p (0 : Fin 1)) fun ax => ?_
  match ax with
  | ⟨0, _⟩ =>
    show p.val = if n = 1 then 0 else p.val
    split
    · have := p.isLt; omega
    · rfl
  | ⟨1, _⟩ => show (0 : ℕ) = if (1 : ℕ) = 1 then 0 else o.val; rw [if_pos rfl]

/-- −∞ is the least extended real. -/
theorem max_negInf (y : EReal) : max (Ideal.ofBits .f32 0xFF800000#32) y = y := by
  simp [Ideal.ofBits, Ideal.ieee]

end Cert.Gcn

end
-- ==== Proof.GcnModel.lean ====
/-
  The whole network as ONE function of the ten argument arrays, at the ideal values: two graph-convolution layers — the
  node features times the layer's weights, aggregated over the edges (the graph side, a named function of the
  transformed features and the edge list), plus the layer's bias, clamped below at zero — and the classifier head on the
  second layer's output. Both programs are shown to compute this function.
-/
import proofs.«150230_j59674275610738_1_alg».proof.Proof.GcnSpec
import proofs.«150230_j59674275610738_1_alg».proof.Proof.GraphSide
import proofs.«150230_j59674275610738_1_alg».proof.Proof.HostLayers

noncomputable section

namespace Cert.Gcn

open Idealize.ShloMosaic Cert.KernelIdeal Cert.Gcn.Graph

variable [Cert.KernelIdeal.Facts]

/-- One graph-convolution layer. -/
def layer (x : (⟨S100000x128, .f32⟩ : BufTy).Contents (Elt Ideal)) (e : (⟨S2x1600000, .i32⟩ : BufTy).Contents (Elt Ideal))
    (w : (⟨S128x128, .f32⟩ : BufTy).Contents (Elt Ideal)) (bias : (⟨S128, .f32⟩ : BufTy).Contents (Elt Ideal)) :
    (⟨S100000x128, .f32⟩ : BufTy).Contents (Elt Ideal) :=
  biasRelu (aggregate (F := Ideal) (mm x w) (sources e) (targets e)) (asRow bias)

/-- The network. -/
def network (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (wp1 : (⟨S128x128, .f32⟩ : BufTy).Contents (Elt Ideal)) (bp1 : (⟨S128, .f32⟩ : BufTy).Contents (Elt Ideal))
    (wp2 : (⟨S128x64, .f32⟩ : BufTy).Contents (Elt Ideal)) (bp2 : (⟨S64, .f32⟩ : BufTy).Contents (Elt Ideal)) :
    (⟨S100000x64, .f32⟩ : BufTy).Contents (Elt Ideal) :=
  head (layer (layer x e w1 b1) e w2 b2) wp1 (asRow bp1) wp2 (asRow bp2)

end Cert.Gcn

end
-- ==== Proof.MatmulRegion0.lean ====
/-
  Region 0: the product of the 100000×128 node-feature array x with the 128×128 weight array w, in 20 row blocks.

  The grid has 20 points. Point t reads rows 5000 t … 5000 t + 4999 of x (block (t, 0) of blocks of 5000×128) and the
  whole of w (block (0, 0) of blocks of 128×128). The block's arithmetic narrows both operands — the identity on
  extended reals — and multiplies them into a zero accumulator, so entry (r, o) of what point t writes back is

      ∑ k < 128, x(5000 t + r, k) · w(k, o),

  which is entry (5000 t + r, o) of the product x · w of the two whole arrays: point t writes block (t, 0) of that one
  function. Row p of the output lies in the block of point p / 5000 < 20, and every column lies in the one column
  block, so the 20 blocks cover the output array: after the region it is x · w.
-/
import proofs.«150230_j59674275610738_1_alg».proof.Proof.Gen.KernelIdeal.Frame
import proofs.«150230_j59674275610738_1_alg».proof.Proof.GcnSpec
import proofs.«150230_j59674275610738_1_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.Gcn.Region0

variable (V : (c : Dev nD) → (b : Ref sig .tc) → Buf (Elt Ideal) ((c : Thread nD τ).loc b))

theorem offsets_zero : (![0, 0] : Fin 2 → Nat) = fun _ => 0 := funext fun a => by fin_cases a <;> rfl

/-- The block's arithmetic at an entry: the contraction, over the 128 columns, of a row of the first block with a
    column of the second (the narrowing of the operands is the identity on extended reals, the accumulator is zero). -/
theorem payload_apply (x0 : Vec Ideal S5000x128 .f32) (x1 : Vec Ideal S128x128 .f32) (r : Fin 5000) (o : Fin 128) :
    k0_pay1 x0 x1 (ix2 r o) = ∑ k : Fin 128, x0 (ix2 r k) * x1 (ix2 k o) := by
  unfold k0_pay1
  exact Cert.LibPlainDot.matmul_zero_apply (n := 5000) (a := 128) (b := 128) none x0 x1 r o

/-- The printed index maps over the 20 grid points: the row-block windows sit at block (t, 0), the weight window at
    block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node-feature window's block at point t is rows 5000 t … 5000 t + 4999 of its array. -/
theorem rows_block_apply (c : Dev nD) (t : Fin cfg0.N) (r : Fin 5000) (k : Fin 128) (i : S100000x128.Idx)
    (h0 : (i 0).val = 5000 * t.val + r.val) (h1 : (i 1).val = k.val) :
    (iblk0 V c 0 t : Vec Ideal S5000x128 .f32) (ix2 r k) = (V c main_arg0 : S100000x128.Idx → EReal) i := by
  obtain ⟨e0, e1, -, -, -, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * r.val = (i 0).val; rw [e0, h0]; omega
  | ⟨1, _⟩ => show win0_0.index t (1 : Fin 2) * 128 + 1 * k.val = (i 1).val; rw [e1, h1]; omega

/-- The weight window's block at every point is the whole weight array. -/
theorem weight_block_apply (c : Dev nD) (t : Fin cfg0.N) (k : Fin 128) (o : Fin 128) :
    (iblk0 V c 1 t : Vec Ideal S128x128 .f32) (ix2 k o) = (V c main_arg2 : S128x128.Idx → EReal) (ix2 k o) := by
  obtain ⟨-, -, e2, e3, -, -⟩ := index_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * o.val = o.val; rw [e3]; omega

/-- An entry of the product of two arrays, at any index of the product's shape. -/
theorem mm_at {n a b : ℕ} (L : FVec Ideal ⟨2, ![n, a]⟩ .f32) (R : FVec Ideal ⟨2, ![a, b]⟩ .f32)
    (i : (⟨2, ![n, b]⟩ : Shape).Idx) :
    Cert.Gcn.mm L R i = ∑ k : Fin a, L (ix2 ⟨(i 0).val, (i 0).isLt⟩ k) * R (ix2 k ⟨(i 1).val, (i 1).isLt⟩) := rfl

/-- What point t writes back is block t of the product of the two arrays as the region finds them. -/
theorem flushed_eq (c : Dev nD) (t : Fin cfg0.N) :
    (dat0 (F := Ideal) V c).flushed 2 t
      = ((cfg0.win 2).blk t).view.read (Elt Ideal) (Cert.Gcn.mm (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x128) offsets_zero]
  obtain ⟨-, -, -, -, e4, e5⟩ := index_facts t
  funext j
  obtain ⟨r, o, rfl⟩ : ∃ (r : Fin 5000) (o : Fin 128), j = ix2 r o := ⟨j 0, j 1, eq_ix2 j⟩
  show k0_pay1 (iblk0 V c 0 t) (iblk0 V c 1 t) (ix2 r o)
    = Cert.Gcn.mm (V c main_arg0) (V c main_arg2) (((cfg0.win 2).blk t).view.emb (ix2 r o))
  refine ((payload_apply _ _ r o).trans ?_).trans (mm_at _ _ _).symm
  refine Finset.sum_congr rfl fun k _ => ?_
  congr 1
  · refine rows_block_apply V c t r k _ ?_ rfl
    show win0_2.index t (0 : Fin 2) * 5000 + 1 * r.val = 5000 * t.val + r.val
    rw [e4]; omega
  · refine (weight_block_apply V c t k o).trans ?_
    congr 1
    funext a
    apply Fin.ext
    match a with
    | ⟨0, _⟩ => rfl
    | ⟨1, _⟩ => show o.val = win0_2.index t (1 : Fin 2) * 128 + 1 * o.val; rw [e5]; omega

/-- An index of the output array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- Every index of the output array is in the block of the point its row, divided by 5000, names. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := index_facts t
  have ht : t.val = (i 0).val / 5000 := rfl
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- The output array after the region: the product of the two arrays the region finds. -/
theorem final (c : Dev nD) :
    (dat0 (F := Ideal) V c).arrAt 2 cfg0.N = Cert.Gcn.mm (V c main_arg0) (V c main_arg2) :=
  (dat0 (F := Ideal) V c).arrAt_eq_of_cover 2 (Cert.Gcn.mm (V c main_arg0) (V c main_arg2))
    (fun t _ => flushed_eq V c t) covered

end Cert.Gcn.Region0
end
-- ==== Proof.BiasReluRegion1.lean ====
/-
  The bias-and-rectify launch over the first layer's aggregated features.

  The 100000 rows of the feature array are cut into 20 blocks of 5000 consecutive rows; the bias row [1, 128] is read
  whole at every grid point. At grid point t the body reads block t of the features, h(5000·t + r, o) for r < 5000 and
  o < 128, and the bias row, spreads the bias row over the 5000 rows, adds, and takes the maximum with the splat of
  zero. So block t of the output holds, at (r, o),

      max (h(5000·t + r, o) + bias(0, o)) 0,

  which is the entry (5000·t + r, o) of the whole-array function "bias row added to every row, then the maximum with
  zero". Every row p < 100000 lies in exactly the block p / 5000 (5000·(p / 5000) ≤ p < 5000·(p / 5000) + 5000 and
  p / 5000 < 20), and every block is written back, so the 20 blocks together are that function on the whole array.
-/
import proofs.«150230_j59674275610738_1_alg».proof.Proof.Gen.KernelIdeal.Frame
import proofs.«150230_j59674275610738_1_alg».proof.Proof.GcnSpec
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.SL.Sem Idealize.ShloMosaic.ValueIdx
open Cert.KernelIdeal Cert.KernelIdeal.Gen

namespace Cert.Gcn.Region1

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The body's arithmetic at row r, lane o of a block: the block's entry plus the bias row's entry of that lane, then
    the maximum with zero. The two views of a shape as itself change nothing, the spread of the one bias row over the
    5000 rows reads the row at the lane, and the splat of zero reads zero everywhere. -/
theorem payload_apply (x0 : Vec Ideal S5000x128 .f32) (x1 : Vec Ideal S1x128 .f32) (r : Fin 5000) (o : Fin 128) :
    k1_pay1 x0 x1 (ix2 r o) = max (x0 (ix2 r o) + x1 (ix2 (0 : Fin 1) o)) (Ideal.ofBits .f32 0x00000000#32) := by
  unfold k1_pay1
  rw [maximumf_apply, addf_apply, broadcast_apply, shapeCast_self, shapeCast_self, broadcastTo_1b_ab_apply]
  rfl

/-- The printed index maps over the 20 grid points: the feature window and the output window sit at row block t,
    lane block 0; the bias window always at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole-array function of the two arrays the launch reads. -/
theorem flushed_eq (c : Dev nD) (t : Fin cfg1.N) :
    (dat1 (F := Ideal) V c).flushed 2 t
      = ((cfg1.win 2).blk t).view.read (Elt Ideal) (Cert.Gcn.biasRelu (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := index_facts t
  have hN : cfg1.N = 20 := N_1
  have ht : t.val < 20 := hN ▸ t.isLt
  funext j
  obtain ⟨r, o, rfl⟩ : ∃ (r : Fin 5000) (o : Fin 128), j = ix2 r o := ⟨j 0, j 1, eq_ix2 j⟩
  refine (payload_apply _ _ r o).trans ?_
  have hr : r.val < 5000 := r.isLt
  -- the row of the array that row r of block t is
  let p : Fin 100000 := ⟨t.val * 5000 + r.val, by omega⟩
  -- the two arrays the launch reads, as functions of an index
  let H : FVec Ideal S100000x128 .f32 := V c main_v43
  let B : FVec Ideal S1x128 .f32 := V c main_v44
  show max (H (((cfg1.win 0).blk t).view.emb (ix2 r o)) + B (((cfg1.win 1).blk t).view.emb (ix2 (0 : Fin 1) o)))
        (Ideal.ofBits .f32 0x00000000#32)
      = Cert.Gcn.biasRelu H B (((cfg1.win 2).blk t).view.emb (ix2 r o))
  have h0 : ((cfg1.win 0).blk t).view.emb (ix2 r o) = ix2 p o := by
    funext a; apply Fin.ext
    match a with
    | ⟨0, _⟩ => show win1_0.index t (0 : Fin 2) * 5000 + 1 * r.val = t.val * 5000 + r.val; omega
    | ⟨1, _⟩ => show win1_0.index t (1 : Fin 2) * 128 + 1 * o.val = o.val; omega
  have h1 : ((cfg1.win 1).blk t).view.emb (ix2 (0 : Fin 1) o) = ix2 (0 : Fin 1) o := by
    funext a; apply Fin.ext
    match a with
    | ⟨0, _⟩ => show win1_1.index t (0 : Fin 2) * 1 + 1 * 0 = 0; omega
    | ⟨1, _⟩ => show win1_1.index t (1 : Fin 2) * 128 + 1 * o.val = o.val; omega
  have h2 : ((cfg1.win 2).blk t).view.emb (ix2 r o) = ix2 p o := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * o.val = o.val; omega
  rw [h0, h1, h2, Cert.Gcn.biasRelu_apply]

/-- An index of the array is in grid point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every index of the array is in the block of the grid point (row / 5000), which writes its block back. -/
theorem cover (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  have hq : (i 0).val / 5000 < cfg1.N := by rw [hN]; omega
  obtain ⟨e0, e1, e2, e3, e4, e5⟩ := index_facts ⟨(i 0).val / 5000, hq⟩
  have e4' : win1_2.index ⟨(i 0).val / 5000, hq⟩ (0 : Fin 2) = (i 0).val / 5000 := e4
  refine ⟨⟨(i 0).val / 5000, hq⟩, flush1_2 _, ?_⟩
  rw [mem_block]
  intro a
  match a with
  | ⟨0, _⟩ =>
    show win1_2.index ⟨(i 0).val / 5000, hq⟩ (0 : Fin 2) * 5000 ≤ (i 0).val
      ∧ (i 0).val < win1_2.index ⟨(i 0).val / 5000, hq⟩ (0 : Fin 2) * 5000 + 5000
    omega
  | ⟨1, _⟩ =>
    show win1_2.index ⟨(i 0).val / 5000, hq⟩ (1 : Fin 2) * 128 ≤ (i 1).val
      ∧ (i 1).val < win1_2.index ⟨(i 0).val / 5000, hq⟩ (1 : Fin 2) * 128 + 128
    omega

/-- The output array after the launch: the bias row added to every row of the features, then the maximum with zero. -/
theorem final (c : Dev nD) :
    (dat1 (F := Ideal) V c).arrAt 2 cfg1.N = Cert.Gcn.biasRelu (V c main_v43) (V c main_v44) :=
  (dat1 V c).arrAt_eq_of_cover 2 (Cert.Gcn.biasRelu (V c main_v43) (V c main_v44))
    (fun t _ => flushed_eq V c t) (cover)

end Cert.Gcn.Region1

end
-- ==== Proof.MatmulRegion2.lean ====
/-
  Region 2: the product of the 100000×128 array x the region finds as its first operand with the 128×128 weight array
  w, in 20 row blocks.

  The grid has 20 points. Point t reads rows 5000 t … 5000 t + 4999 of x (block (t, 0) of blocks of 5000×128) and the
  whole of w (block (0, 0) of blocks of 128×128). The block's arithmetic casts the first block to its own shape, which
  changes nothing, narrows both operands — the identity on extended reals — and multiplies them into a zero
  accumulator, so entry (r, o) of what point t writes back is

      ∑ k < 128, x(5000 t + r, k) · w(k, o),

  which is entry (5000 t + r, o) of the product x · w of the two whole arrays: point t writes block (t, 0) of that one
  function. Row p of the output lies in the block of point p / 5000 < 20, and every column lies in the one column
  block, so the 20 blocks cover the output array: after the region it is x · w.
-/
import proofs.«150230_j59674275610738_1_alg».proof.Proof.Gen.KernelIdeal.Frame
import proofs.«150230_j59674275610738_1_alg».proof.Proof.GcnSpec
import proofs.«150230_j59674275610738_1_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.Gcn.Region2

variable (V : (c : Dev nD) → (b : Ref sig .tc) → Buf (Elt Ideal) ((c : Thread nD τ).loc b))

theorem offsets_zero : (![0, 0] : Fin 2 → Nat) = fun _ => 0 := funext fun a => by fin_cases a <;> rfl

/-- The block's arithmetic at an entry: the contraction, over the 128 columns, of a row of the first block with a
    column of the second (the first block is first cast to its own shape, which changes nothing; the narrowing of the operands is the
    identity on extended reals, the accumulator is zero). -/
theorem payload_apply (x0 : Vec Ideal S5000x128 .f32) (x1 : Vec Ideal S128x128 .f32) (r : Fin 5000) (o : Fin 128) :
    k2_pay1 x0 x1 (ix2 r o) = ∑ k : Fin 128, x0 (ix2 r k) * x1 (ix2 k o) := by
  unfold k2_pay1
  rw [shapeCast_self]
  exact Cert.LibPlainDot.matmul_zero_apply (n := 5000) (a := 128) (b := 128) none x0 x1 r o

/-- The printed index maps over the 20 grid points: the row-block windows sit at block (t, 0), the weight window at
    block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first window's block at point t is rows 5000 t … 5000 t + 4999 of its array. -/
theorem rows_block_apply (c : Dev nD) (t : Fin cfg2.N) (r : Fin 5000) (k : Fin 128) (i : S100000x128.Idx)
    (h0 : (i 0).val = 5000 * t.val + r.val) (h1 : (i 1).val = k.val) :
    (iblk2 V c 0 t : Vec Ideal S5000x128 .f32) (ix2 r k) = (V c main_v45 : S100000x128.Idx → EReal) i := by
  obtain ⟨e0, e1, -, -, -, -⟩ := index_facts t
  unfold iblk2
  rw [View.read_apply]
  show V c main_v45 _ = V c main_v45 _
  congr 1
  funext a
  apply Fin.ext
  match a with
  | ⟨0, _⟩ => show win2_0.index t (0 : Fin 2) * 5000 + 1 * r.val = (i 0).val; rw [e0, h0]; omega
  | ⟨1, _⟩ => show win2_0.index t (1 : Fin 2) * 128 + 1 * k.val = (i 1).val; rw [e1, h1]; omega

/-- The weight window's block at every point is the whole weight array. -/
theorem weight_block_apply (c : Dev nD) (t : Fin cfg2.N) (k : Fin 128) (o : Fin 128) :
    (iblk2 V c 1 t : Vec Ideal S128x128 .f32) (ix2 k o) = (V c main_arg4 : S128x128.Idx → EReal) (ix2 k o) := by
  obtain ⟨-, -, e2, e3, -, -⟩ := index_facts t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * o.val = o.val; rw [e3]; omega

/-- An entry of the product of two arrays, at any index of the product's shape. -/
theorem mm_at {n a b : ℕ} (L : FVec Ideal ⟨2, ![n, a]⟩ .f32) (R : FVec Ideal ⟨2, ![a, b]⟩ .f32)
    (i : (⟨2, ![n, b]⟩ : Shape).Idx) :
    Cert.Gcn.mm L R i = ∑ k : Fin a, L (ix2 ⟨(i 0).val, (i 0).isLt⟩ k) * R (ix2 k ⟨(i 1).val, (i 1).isLt⟩) := rfl

/-- What point t writes back is block t of the product of the two arrays as the region finds them. -/
theorem flushed_eq (c : Dev nD) (t : Fin cfg2.N) :
    (dat2 (F := Ideal) V c).flushed 2 t
      = ((cfg2.win 2).blk t).view.read (Elt Ideal) (Cert.Gcn.mm (V c main_v45) (V c main_arg4)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S128x128) offsets_zero]
  obtain ⟨-, -, -, -, e4, e5⟩ := index_facts t
  funext j
  obtain ⟨r, o, rfl⟩ : ∃ (r : Fin 5000) (o : Fin 128), j = ix2 r o := ⟨j 0, j 1, eq_ix2 j⟩
  show k2_pay1 (iblk2 V c 0 t) (iblk2 V c 1 t) (ix2 r o)
    = Cert.Gcn.mm (V c main_v45) (V c main_arg4) (((cfg2.win 2).blk t).view.emb (ix2 r o))
  refine ((payload_apply _ _ r o).trans ?_).trans (mm_at _ _ _).symm
  refine Finset.sum_congr rfl fun k _ => ?_
  congr 1
  · refine rows_block_apply V c t r k _ ?_ rfl
    show win2_2.index t (0 : Fin 2) * 5000 + 1 * r.val = 5000 * t.val + r.val
    rw [e4]; omega
  · refine (weight_block_apply V c t k o).trans ?_
    congr 1
    funext a
    apply Fin.ext
    match a with
    | ⟨0, _⟩ => rfl
    | ⟨1, _⟩ => show o.val = win2_2.index t (1 : Fin 2) * 128 + 1 * o.val; rw [e5]; omega

/-- An index of the output array is in point t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- Every index of the output array is in the block of the point its row, divided by 5000, names. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, e4, e5⟩ := index_facts t
  have ht : t.val = (i 0).val / 5000 := rfl
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

/-- The output array after the region: the product of the two arrays the region finds. -/
theorem final (c : Dev nD) :
    (dat2 (F := Ideal) V c).arrAt 2 cfg2.N = Cert.Gcn.mm (V c main_v45) (V c main_arg4) :=
  (dat2 (F := Ideal) V c).arrAt_eq_of_cover 2 (Cert.Gcn.mm (V c main_v45) (V c main_arg4))
    (fun t _ => flushed_eq V c t) covered

end Cert.Gcn.Region2
end
-- ==== Proof.BiasReluRegion3.lean ====
/-
  The bias-and-rectify launch over the second layer's aggregated features.

  The 100000 rows of the feature array are cut into 20 blocks of 5000 consecutive rows; the bias row [1, 128] is read
  whole at every grid point. At grid point t the body reads block t of the features, h(5000·t + r, o) for r < 5000 and
  o < 128, and the bias row, spreads the bias row over the 5000 rows, adds, and takes the maximum with the splat of
  zero. So block t of the output holds, at (r, o),

      max (h(5000·t + r, o) + bias(0, o)) 0,

  which is the entry (5000·t + r, o) of the whole-array function "bias row added to every row, then the maximum with
  zero". Every row p < 100000 lies in exactly the block p / 5000 (5000·(p / 5000) ≤ p < 5000·(p / 5000) + 5000 and
  p / 5000 < 20), and every block is written back, so the 20 blocks together are that function on the whole array.
-/
import proofs.«150230_j59674275610738_1_alg».proof.Proof.Gen.KernelIdeal.Frame
import proofs.«150230_j59674275610738_1_alg».proof.Proof.GcnSpec
import Idealize.ShloMosaic.Lib.Pipeline.Value
import Idealize.ShloMosaic.Lib.ValueLayout
import Idealize.ShloMosaic.Lib.ValueIdx

set_option maxRecDepth 16384

noncomputable section

open Idealize.ShloMosaic Idealize.ShloMosaic.TcCoe Idealize.SL.Sem Idealize.ShloMosaic.ValueIdx
open Cert.KernelIdeal Cert.KernelIdeal.Gen

namespace Cert.Gcn.Region3

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The body's arithmetic at row r, lane o of a block: the block's entry plus the bias row's entry of that lane, then
    the maximum with zero. The two views of a shape as itself change nothing, the spread of the one bias row over the
    5000 rows reads the row at the lane, and the splat of zero reads zero everywhere. -/
theorem payload_apply (x0 : Vec Ideal S5000x128 .f32) (x1 : Vec Ideal S1x128 .f32) (r : Fin 5000) (o : Fin 128) :
    k3_pay1 x0 x1 (ix2 r o) = max (x0 (ix2 r o) + x1 (ix2 (0 : Fin 1) o)) (Ideal.ofBits .f32 0x00000000#32) := by
  unfold k3_pay1
  rw [maximumf_apply, addf_apply, broadcast_apply, shapeCast_self, shapeCast_self, broadcastTo_1b_ab_apply]
  rfl

/-- The printed index maps over the 20 grid points: the feature window and the output window sit at row block t,
    lane block 0; the bias window always at block (0, 0). -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the whole-array function of the two arrays the launch reads. -/
theorem flushed_eq (c : Dev nD) (t : Fin cfg3.N) :
    (dat3 (F := Ideal) V c).flushed 2 t
      = ((cfg3.win 2).blk t).view.read (Elt Ideal) (Cert.Gcn.biasRelu (V c main_v85) (V c main_v86)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := index_facts t
  have hN : cfg3.N = 20 := N_3
  have ht : t.val < 20 := hN ▸ t.isLt
  funext j
  obtain ⟨r, o, rfl⟩ : ∃ (r : Fin 5000) (o : Fin 128), j = ix2 r o := ⟨j 0, j 1, eq_ix2 j⟩
  refine (payload_apply _ _ r o).trans ?_
  have hr : r.val < 5000 := r.isLt
  -- the row of the array that row r of block t is
  let p : Fin 100000 := ⟨t.val * 5000 + r.val, by omega⟩
  -- the two arrays the launch reads, as functions of an index
  let H : FVec Ideal S100000x128 .f32 := V c main_v85
  let B : FVec Ideal S1x128 .f32 := V c main_v86
  show max (H (((cfg3.win 0).blk t).view.emb (ix2 r o)) + B (((cfg3.win 1).blk t).view.emb (ix2 (0 : Fin 1) o)))
        (Ideal.ofBits .f32 0x00000000#32)
      = Cert.Gcn.biasRelu H B (((cfg3.win 2).blk t).view.emb (ix2 r o))
  have h0 : ((cfg3.win 0).blk t).view.emb (ix2 r o) = ix2 p o := by
    funext a; apply Fin.ext
    match a with
    | ⟨0, _⟩ => show win3_0.index t (0 : Fin 2) * 5000 + 1 * r.val = t.val * 5000 + r.val; omega
    | ⟨1, _⟩ => show win3_0.index t (1 : Fin 2) * 128 + 1 * o.val = o.val; omega
  have h1 : ((cfg3.win 1).blk t).view.emb (ix2 (0 : Fin 1) o) = ix2 (0 : Fin 1) o := by
    funext a; apply Fin.ext
    match a with
    | ⟨0, _⟩ => show win3_1.index t (0 : Fin 2) * 1 + 1 * 0 = 0; omega
    | ⟨1, _⟩ => show win3_1.index t (1 : Fin 2) * 128 + 1 * o.val = o.val; omega
  have h2 : ((cfg3.win 2).blk t).view.emb (ix2 r o) = ix2 p o := by
    funext a; apply Fin.ext
    match a with
    | ⟨0, _⟩ => show win3_2.index t (0 : Fin 2) * 5000 + 1 * r.val = t.val * 5000 + r.val; omega
    | ⟨1, _⟩ => show win3_2.index t (1 : Fin 2) * 128 + 1 * o.val = o.val; omega
  rw [h0, h1, h2, Cert.Gcn.biasRelu_apply]

/-- An index of the array is in grid point t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v87).slice (win3_2.rect t)).set ↔ _
  rw [View.set_slice_whole, Rect.mem_set_unit]
  exact Iff.rfl

/-- Every index of the array is in the block of the grid point (row / 5000), which writes its block back. -/
theorem cover (i : S100000x128.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 128 := (i 1).isLt
  have hq : (i 0).val / 5000 < cfg3.N := by rw [hN]; omega
  obtain ⟨e0, e1, e2, e3, e4, e5⟩ := index_facts ⟨(i 0).val / 5000, hq⟩
  have e4' : win3_2.index ⟨(i 0).val / 5000, hq⟩ (0 : Fin 2) = (i 0).val / 5000 := e4
  refine ⟨⟨(i 0).val / 5000, hq⟩, flush3_2 _, ?_⟩
  rw [mem_block]
  intro a
  match a with
  | ⟨0, _⟩ =>
    show win3_2.index ⟨(i 0).val / 5000, hq⟩ (0 : Fin 2) * 5000 ≤ (i 0).val
      ∧ (i 0).val < win3_2.index ⟨(i 0).val / 5000, hq⟩ (0 : Fin 2) * 5000 + 5000
    omega
  | ⟨1, _⟩ =>
    show win3_2.index ⟨(i 0).val / 5000, hq⟩ (1 : Fin 2) * 128 ≤ (i 1).val
      ∧ (i 1).val < win3_2.index ⟨(i 0).val / 5000, hq⟩ (1 : Fin 2) * 128 + 128
    omega

/-- The output array after the launch: the bias row added to every row of the features, then the maximum with zero. -/
theorem final (c : Dev nD) :
    (dat3 (F := Ideal) V c).arrAt 2 cfg3.N = Cert.Gcn.biasRelu (V c main_v85) (V c main_v86) :=
  (dat3 V c).arrAt_eq_of_cover 2 (Cert.Gcn.biasRelu (V c main_v85) (V c main_v86))
    (fun t _ => flushed_eq V c t) (cover)

end Cert.Gcn.Region3

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.HeadBlock.lean ====
/-
  The classifier head on one block of rows.

  The last launch reads a block of 5000 rows of the node features h (each row 128 wide), the two weight arrays and
  the two bias rows whole, and writes a block of 5000 rows of 64 entries. Every entry (r, j) it writes is computed
  from row r of the block alone:

      z(r, ·) = ((h(r, ·) · w1 + b1) · w2 + b2),     out(r, j) = (z(r, j) − max_k z(r, k)) − log ∑_k exp (z(r, k) − max_k z(r, k)).

  At the ideal values rounding to the narrower format is the identity, a product into the zero accumulator is the sum
  over the contraction index, the reduction of a row by maximum from −∞ is the fold of max over the row, the reduction
  by addition is the row's sum, and the keep-dimension steps (a vector seen as a column, the column repeated along
  the rows) only move an entry of row r to every place of row r. So the block written is the logarithm of the row-wise
  softmax of the two affine layers of the block read — the whole-array functions of the specification, taken on a
  5000-row array.
-/
import proofs.«150230_j59674275610738_1_alg».proof.Proof.Gen.KernelIdeal.Skeleton
import proofs.«150230_j59674275610738_1_alg».proof.Proof.GcnSpec
import proofs.«150230_j59674275610738_1_alg».proof.Proof.LibPlainDot
import proofs.«150230_j59674275610738_1_alg».proof.Proof.LibKeepDims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx
open Cert.KernelIdeal Cert.KernelIdeal.Gen

namespace Cert.Gcn.Region4

variable {n a b : ℕ}

/-! ## One affine layer -/

/-- A product of the operands rounded to the narrower format, into the zero accumulator, plus the bias row repeated
    along the rows: at (p, o) the affine layer's entry. -/
theorem affineTerm_apply (h : FVec Ideal ⟨2, ![n, a]⟩ .f32) (w : FVec Ideal ⟨2, ![a, b]⟩ .f32)
    (bias : FVec Ideal ⟨2, ![1, b]⟩ .f32) (hlt : FTy.bits .bf16 < FTy.bits .f32)
    (hbc : (⟨2, ![1, b]⟩ : Shape).Broadcasts ⟨2, ![n, b]⟩) (p : Fin n) (o : Fin b) :
    addf (matmul (DotDims.plain n a b) none (truncf .bf16 h hlt) (truncf .bf16 w hlt)
        (constant (F := Ideal) ⟨2, ![n, b]⟩ .f32 0x00000000#32))
      (broadcastTo ⟨2, ![n, b]⟩ bias hbc) (ix2 p o) = affineAt h w bias p o := by
  rw [addf_apply, broadcastTo_1b_ab_apply]
  exact congrArg (· + bias (ix2 (0 : Fin 1) o))
    ((Ideal.matmul_constant_zero_apply (DotDims.plain n a b) none (truncf .bf16 h hlt) (truncf .bf16 w hlt) (ix2 p o)).trans
      (Cert.LibPlainDot.sum_contr h w p o))

/-! ## A row's maximum and a row's sum -/

/-- The reduced index r with column k put back is (r, k). -/
theorem lift_row (h : (⟨2, ![n, b]⟩ : Shape).Reduces [1] (⟨1, ![n]⟩ : Shape)) (r : Fin n)
    (k : Fin ((⟨2, ![n, b]⟩ : Shape).size 1)) : h.lift (ix1 r) k = ix2 r (⟨k.val, k.isLt⟩ : Fin b) := by
  funext c; apply Fin.ext
  fin_cases c <;> rfl

/-- The reduction of the rows by maximum from −∞, at row r, is that row's maximum. -/
theorem rowMaxTerm_apply (z : FVec Ideal ⟨2, ![n, b]⟩ .f32) (hred : (⟨2, ![n, b]⟩ : Shape).Reduces [1] (⟨1, ![n]⟩ : Shape))
    (hφ : FKind.Formats .f32) (hacc : (0xFF800000#32 : BitVec FTy.f32.bits) = FKind.maximumf.neutral .f32 hφ) (r : Fin n) :
    multiReduction (F := Ideal) .maximumf [1] ⟨1, ![n]⟩ z 0xFF800000#32 hred hφ hacc (ix1 r) = rowMax z r := by
  refine (Ideal.multiReduction_maximumf_single z _ hred hφ hacc (ix1 r)).trans ?_
  have hf : (z ∘ hred.lift (ix1 r)) = fun k : Fin b => z (ix2 r k) := funext fun k => congrArg z (lift_row hred r k)
  exact congrArg (fun f => Finset.fold max (Ideal.ofBits .f32 0xFF800000#32) f (Finset.univ : Finset (Fin b))) hf

/-- The reduction of the rows by addition, at row r, is that row's sum. -/
theorem rowSumTerm_apply (z : FVec Ideal ⟨2, ![n, b]⟩ .f32) (hred : (⟨2, ![n, b]⟩ : Shape).Reduces [1] (⟨1, ![n]⟩ : Shape))
    (hφ : FKind.Formats .f32) (hacc : (0x00000000#32 : BitVec FTy.f32.bits) = FKind.add.neutral .f32 hφ) (r : Fin n) :
    multiReduction (F := Ideal) .add [1] ⟨1, ![n]⟩ z 0x00000000#32 hred hφ hacc (ix1 r) = ∑ k : Fin b, z (ix2 r k) := by
  refine (Ideal.multiReduction_add_single z _ hred hφ hacc (ix1 r)).trans ?_
  exact Finset.sum_congr rfl fun k _ => congrArg z (lift_row hred r k)

/-! ## The logarithm of the row-wise softmax -/

/-- Every entry minus its row's maximum, the maximum kept as a column and repeated along the row. -/
theorem shiftedTerm_apply (z : FVec Ideal ⟨2, ![n, b]⟩ .f32) (hred : (⟨2, ![n, b]⟩ : Shape).Reduces [1] (⟨1, ![n]⟩ : Shape))
    (hφ : FKind.Formats .f32) (hacc : (0xFF800000#32 : BitVec FTy.f32.bits) = FKind.maximumf.neutral .f32 hφ)
    (hsc : (⟨1, ![n]⟩ : Shape).ShapeCasts ⟨2, ![n, 1]⟩) (hbc : (⟨2, ![n, 1]⟩ : Shape).Broadcasts ⟨2, ![n, b]⟩)
    (r : Fin n) (k : Fin b) :
    subf z (broadcastTo ⟨2, ![n, b]⟩
      (shapeCast ⟨2, ![n, 1]⟩ (multiReduction (F := Ideal) .maximumf [1] ⟨1, ![n]⟩ z 0xFF800000#32 hred hφ hacc) hsc) hbc) (ix2 r k)
      = shifted z r k := by
  rw [subf_apply, Cert.Lib.KeepDims.broadcastTo_a1_ab_apply, Cert.Lib.KeepDims.shapeCast_a_a1_apply,
    rowMaxTerm_apply]
  rfl

/-- The shifted entry minus the logarithm of its row's sum of exponentials, the sum kept as a column and repeated
    along the row. -/
theorem logSoftmaxTerm_apply (z s : FVec Ideal ⟨2, ![n, b]⟩ .f32) (hs : ∀ r k, s (ix2 r k) = shifted z r k)
    (hred : (⟨2, ![n, b]⟩ : Shape).Reduces [1] (⟨1, ![n]⟩ : Shape))
    (hφ : FKind.Formats .f32) (hacc : (0x00000000#32 : BitVec FTy.f32.bits) = FKind.add.neutral .f32 hφ)
    (hsc : (⟨1, ![n]⟩ : Shape).ShapeCasts ⟨2, ![n, 1]⟩) (hbc : (⟨2, ![n, 1]⟩ : Shape).Broadcasts ⟨2, ![n, b]⟩)
    (r : Fin n) (j : Fin b) :
    subf s (broadcastTo ⟨2, ![n, b]⟩
      (log (shapeCast ⟨2, ![n, 1]⟩ (multiReduction (F := Ideal) .add [1] ⟨1, ![n]⟩ (exp s) 0x00000000#32 hred hφ hacc) hsc)) hbc) (ix2 r j)
      = logSoftmaxAt z r j := by
  rw [subf_apply, Cert.Lib.KeepDims.broadcastTo_a1_ab_apply]
  show s (ix2 r j) - Ideal.log (shapeCast ⟨2, ![n, 1]⟩ (multiReduction (F := Ideal) .add [1] ⟨1, ![n]⟩ (exp s) 0x00000000#32 hred hφ hacc) hsc (ix2 r (0 : Fin 1)))
    = logSoftmaxAt z r j
  rw [Cert.Lib.KeepDims.shapeCast_a_a1_apply, rowSumTerm_apply, hs]
  unfold logSoftmaxAt
  refine congrArg (fun t => shifted z r j - Ideal.log t) (Finset.sum_congr rfl fun k _ => ?_)
  show Ideal.exp (s (ix2 r k)) = Ideal.exp (shifted z r k)
  rw [hs]

/-! ## The payload of the last launch -/

/-- The first affine layer as the body computes it. -/
def lin1Term (x0 : Vec Ideal S5000x128 .f32) (x1 : Vec Ideal S128x128 .f32) (x2 : Vec Ideal S1x128 .f32) :
    FVec Ideal S5000x128 .f32 :=
  addf (matmul dot_S5000x128_S128x128_S5000x128_1_0_0_1_n_n none
      (truncf .bf16 (shapeCast S5000x128 x0 shapeCasts_S5000x128_S5000x128) bitsLt_bf16_f32) (truncf .bf16 x1 bitsLt_bf16_f32)
      (constant S5000x128 .f32 0x00000000#32))
    (broadcastTo S5000x128 (shapeCast S1x128 x2 shapeCasts_S1x128_S1x128) broadcasts_S1x128_S5000x128)

/-- The second affine layer as the body computes it. -/
def lin2Term (y : FVec Ideal S5000x128 .f32) (x3 : Vec Ideal S128x64 .f32) (x4 : Vec Ideal S1x64 .f32) :
    FVec Ideal S5000x64 .f32 :=
  addf (matmul dot_S5000x128_S128x64_S5000x64_1_0_0_1_n_n none
      (truncf .bf16 y bitsLt_bf16_f32) (truncf .bf16 x3 bitsLt_bf16_f32) (constant S5000x64 .f32 0x00000000#32))
    (broadcastTo S5000x64 (shapeCast S1x64 x4 shapeCasts_S1x64_S1x64) broadcasts_S1x64_S5000x64)

/-- Every entry minus its row's maximum as the body computes it. -/
def shiftTerm (z : FVec Ideal S5000x64 .f32) : FVec Ideal S5000x64 .f32 :=
  subf z (broadcastTo S5000x64
    (shapeCast S5000x1 (multiReduction .maximumf [1] S5000 z 0xFF800000#32 reduces_S5000x64_S5000 (.inl rfl) rfl)
      shapeCasts_S5000_S5000x1) broadcasts_S5000x1_S5000x64)

/-- The shifted entries minus the logarithm of their row's sum of exponentials as the body computes it. -/
def logSumTerm (s : FVec Ideal S5000x64 .f32) : FVec Ideal S5000x64 .f32 :=
  subf s (broadcastTo S5000x64
    (log (shapeCast S5000x1 (multiReduction .add [1] S5000 (exp s) 0x00000000#32 reduces_S5000x64_S5000 (.inl rfl) rfl)
      shapeCasts_S5000_S5000x1)) broadcasts_S5000x1_S5000x64)

/-- The payload is those four steps in a row (the printed bindings substituted). -/
theorem pay_eq (x0 : Vec Ideal S5000x128 .f32) (x1 : Vec Ideal S128x128 .f32) (x2 : Vec Ideal S1x128 .f32)
    (x3 : Vec Ideal S128x64 .f32) (x4 : Vec Ideal S1x64 .f32) :
    k4_pay1 x0 x1 x2 x3 x4 = logSumTerm (shiftTerm (lin2Term (lin1Term x0 x1 x2) x3 x4)) := rfl

/-- The first layer of the block is the specification's affine layer of the block. -/
theorem lin1Term_eq (x0 : Vec Ideal S5000x128 .f32) (x1 : Vec Ideal S128x128 .f32) (x2 : Vec Ideal S1x128 .f32) :
    lin1Term x0 x1 x2 = affine x0 x1 x2 := by
  funext i
  obtain ⟨p, o, rfl⟩ : ∃ (p : Fin 5000) (o : Fin 128), i = ix2 p o := ⟨i 0, i 1, eq_ix2 i⟩
  unfold lin1Term
  rw [shapeCast_self, shapeCast_self]
  exact affineTerm_apply x0 x1 x2 bitsLt_bf16_f32 broadcasts_S1x128_S5000x128 p o

/-- The second layer likewise. -/
theorem lin2Term_eq (y : FVec Ideal S5000x128 .f32) (x3 : Vec Ideal S128x64 .f32) (x4 : Vec Ideal S1x64 .f32) :
    lin2Term y x3 x4 = affine y x3 x4 := by
  funext i
  obtain ⟨p, o, rfl⟩ : ∃ (p : Fin 5000) (o : Fin 64), i = ix2 p o := ⟨i 0, i 1, eq_ix2 i⟩
  unfold lin2Term
  rw [shapeCast_self]
  exact affineTerm_apply y x3 x4 bitsLt_bf16_f32 broadcasts_S1x64_S5000x64 p o

/-- THE BLOCK WRITTEN: entry (r, j) of the payload is the logarithm of the row-wise softmax, at (r, j), of the two
    affine layers of the block read. -/
theorem pay_apply (x0 : Vec Ideal S5000x128 .f32) (x1 : Vec Ideal S128x128 .f32) (x2 : Vec Ideal S1x128 .f32)
    (x3 : Vec Ideal S128x64 .f32) (x4 : Vec Ideal S1x64 .f32) (r : Fin 5000) (j : Fin 64) :
    k4_pay1 x0 x1 x2 x3 x4 (ix2 r j) = logSoftmaxAt (affine (affine x0 x1 x2) x3 x4) r j := by
  rw [pay_eq, lin1Term_eq, lin2Term_eq]
  exact logSoftmaxTerm_apply (affine (affine x0 x1 x2) x3 x4) (shiftTerm (affine (affine x0 x1 x2) x3 x4))
    (fun r k => shiftedTerm_apply _ reduces_S5000x64_S5000 (.inl rfl) rfl shapeCasts_S5000_S5000x1
      broadcasts_S5000x1_S5000x64 r k)
    reduces_S5000x64_S5000 (.inl rfl) rfl shapeCasts_S5000_S5000x1 broadcasts_S5000x1_S5000x64 r j

end Cert.Gcn.Region4

end
-- ==== Proof.HeadRows.lean ====
/-
  The classifier head reads one row at a time.

  Entry (p, o) of an affine layer is ∑_k h(p, k) · w(k, o) + bias(o): it reads row p of h and nothing else of h. The
  logarithm of the row-wise softmax at (p, o) reads row p of its operand and nothing else: the row's maximum, the
  shifted entries and the sum of their exponentials are a fold and a sum over the entries of that one row. So if row r
  of an array X is row p of an array H, then row r of the head of X is row p of the head of H — whatever the two arrays'
  other rows are, and however many rows each has. This is what lets a block of rows be computed on its own.
-/
import proofs.«150230_j59674275610738_1_alg».proof.Proof.GcnSpec

noncomputable section

open scoped BigOperators

namespace Cert.Gcn.Region4

open Idealize.ShloMosaic Idealize.ShloMosaic.ValueIdx

variable {n m a b c : ℕ}

/-- Row r of X being row p of H, row r of an affine layer of X is row p of the layer of H. -/
theorem affine_row (X : FVec Ideal ⟨2, ![m, a]⟩ .f32) (H : FVec Ideal ⟨2, ![n, a]⟩ .f32) (w : FVec Ideal ⟨2, ![a, b]⟩ .f32)
    (bias : FVec Ideal ⟨2, ![1, b]⟩ .f32) (r : Fin m) (p : Fin n) (hrow : ∀ k : Fin a, X (ix2 r k) = H (ix2 p k))
    (o : Fin b) : affine X w bias (ix2 r o) = affine H w bias (ix2 p o) := by
  rw [affine_apply, affine_apply]
  unfold affineAt dotAt
  exact congrArg (· + bias (ix2 (0 : Fin 1) o)) (Finset.sum_congr rfl fun k _ => by rw [hrow k])

/-- Row r of Z being row p of Z', the two rows have one maximum. -/
theorem rowMax_row (Z : FVec Ideal ⟨2, ![m, b]⟩ .f32) (Z' : FVec Ideal ⟨2, ![n, b]⟩ .f32) (r : Fin m) (p : Fin n)
    (hrow : ∀ k : Fin b, Z (ix2 r k) = Z' (ix2 p k)) : rowMax Z r = rowMax Z' p := by
  unfold rowMax
  exact congrArg (fun f => Finset.fold max (Ideal.ofBits .f32 0xFF800000#32) f (Finset.univ : Finset (Fin b)))
    (funext hrow)

/-- … the same shifted entries … -/
theorem shifted_row (Z : FVec Ideal ⟨2, ![m, b]⟩ .f32) (Z' : FVec Ideal ⟨2, ![n, b]⟩ .f32) (r : Fin m) (p : Fin n)
    (hrow : ∀ k : Fin b, Z (ix2 r k) = Z' (ix2 p k)) (o : Fin b) : shifted Z r o = shifted Z' p o := by
  unfold shifted
  rw [hrow o, rowMax_row Z Z' r p hrow]

/-- … and the same logarithm of the softmax. -/
theorem logSoftmaxAt_row (Z : FVec Ideal ⟨2, ![m, b]⟩ .f32) (Z' : FVec Ideal ⟨2, ![n, b]⟩ .f32) (r : Fin m) (p : Fin n)
    (hrow : ∀ k : Fin b, Z (ix2 r k) = Z' (ix2 p k)) (o : Fin b) : logSoftmaxAt Z r o = logSoftmaxAt Z' p o := by
  unfold logSoftmaxAt
  rw [shifted_row Z Z' r p hrow o]
  exact congrArg (fun t => shifted Z' p o - Ideal.log t)
    (Finset.sum_congr rfl fun k _ => by rw [shifted_row Z Z' r p hrow k])

/-- ROW LOCALITY OF THE HEAD: row r of X being row p of H, entry (r, o) of the logarithm of the softmax of the two
    affine layers of X is entry (p, o) of the head of H. -/
theorem head_row (X : FVec Ideal ⟨2, ![m, a]⟩ .f32) (H : FVec Ideal ⟨2, ![n, a]⟩ .f32) (w1 : FVec Ideal ⟨2, ![a, b]⟩ .f32)
    (b1 : FVec Ideal ⟨2, ![1, b]⟩ .f32) (w2 : FVec Ideal ⟨2, ![b, c]⟩ .f32) (b2 : FVec Ideal ⟨2, ![1, c]⟩ .f32)
    (r : Fin m) (p : Fin n) (hrow : ∀ k : Fin a, X (ix2 r k) = H (ix2 p k)) (o : Fin c) :
    logSoftmaxAt (affine (affine X w1 b1) w2 b2) r o = head H w1 b1 w2 b2 (ix2 p o) := by
  unfold head
  rw [logSoftmax_apply]
  exact logSoftmaxAt_row _ _ r p (affine_row _ _ w2 b2 r p (affine_row X H w1 b1 r p hrow)) o

end Cert.Gcn.Region4

end
-- ==== Proof.HeadRegion4.lean ====
/-
  The last launch writes the classifier head of the whole array.

  The launch runs over 20 grid points. At point t it reads rows 5000 t … 5000 t + 4999 of the node features h (a block
  of 5000 rows, 128 wide) and the two weight arrays and the two bias rows whole, and writes rows 5000 t … 5000 t + 4999
  of the output (64 wide). Entry (r, j) of the block it writes is the logarithm of the row-wise softmax of the two
  affine layers of the block it read, at (r, j); that reads row r of the block only, which is row 5000 t + r of h, so it
  is entry (5000 t + r, j) of the head of the whole array h. Row i of the output lies in the block of point i / 5000 and
  in no other, and every point writes its block back: the 20 blocks tile the 100000 rows, so the output array ends
  holding the head of h.
-/
import proofs.«150230_j59674275610738_1_alg».proof.Proof.Gen.KernelIdeal.Frame
import proofs.«150230_j59674275610738_1_alg».proof.Proof.GcnSpec
import proofs.«150230_j59674275610738_1_alg».proof.Proof.HeadBlock
import proofs.«150230_j59674275610738_1_alg».proof.Proof.HeadRows
import Idealize.ShloMosaic.Lib.ValueIdx
import Idealize.ShloMosaic.Lib.Pipeline.Value

set_option maxRecDepth 16384

noncomputable section

open scoped BigOperators
open Idealize.ShloMosaic Idealize.ShloMosaic.TcCoe Idealize.SL.Sem Idealize.ShloMosaic.ValueIdx
open Cert.KernelIdeal Cert.KernelIdeal.Gen
open Idealize.ShloMosaic.Pipeline (Dat)

namespace Cert.Gcn.Region4

/-! ## A block's entries as entries of the whole-array head -/

/-- Block q of the node features being rows 5000 q … of H, entry (r, j) of what the body writes from that block and the
    whole weights and biases is entry (5000 q + r, j) of the head of H. -/
theorem block_entry (H : FVec Ideal S100000x128 .f32) (x0 : Vec Ideal S5000x128 .f32) (x1 : Vec Ideal S128x128 .f32)
    (x2 : Vec Ideal S1x128 .f32) (x3 : Vec Ideal S128x64 .f32) (x4 : Vec Ideal S1x64 .f32) (r : Fin 5000) (p : Fin 100000)
    (hx0 : ∀ k : Fin 128, x0 (ix2 r k) = H (ix2 p k)) (j : Fin 64) :
    k4_pay1 x0 x1 x2 x3 x4 (ix2 r j) = head H x1 x2 x3 x4 (ix2 p j) :=
  (pay_apply x0 x1 x2 x3 x4 r j).trans (head_row x0 H x1 x2 x3 x4 r p hx0 j)

/-! ## The launch -/

variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: the head of the arrays the launch reads, as it finds them. -/
abbrev headOf (c : Dev nD) : S100000x64.Idx → Elt Ideal .f32 :=
  @head 100000 128 128 64 (V c main_v87) (V c main_arg6) (V c main_v88) (V c main_arg8) (V c main_v89)

/-- The printed index maps, decided over the 20 grid points: the node features' and the output's block index is
    (t, 0); the weights' and the biases' is (0, 0). -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- A window whose one block is its whole array reads, at every point, the array. -/
theorem weights1_block (c : Dev nD) (t : Fin cfg4.N) : iblk4 V c 1 t = V c main_arg6 := by
  obtain ⟨-, -, e0, e1, -⟩ := index_facts t
  funext x
  show V c main_arg6 (((cfg4.win 1).blk t).view.emb x) = V c main_arg6 x
  refine congrArg (V c main_arg6) (funext fun a => Fin.ext ?_)
  match a with
  | ⟨0, _⟩ => show win4_1.index t (0 : Fin 2) * 128 + 1 * (x 0).val = (x 0).val; omega
  | ⟨1, _⟩ => show win4_1.index t (1 : Fin 2) * 128 + 1 * (x 1).val = (x 1).val; omega

theorem bias1_block (c : Dev nD) (t : Fin cfg4.N) : iblk4 V c 2 t = V c main_v88 := by
  obtain ⟨-, -, -, -, e0, e1, -⟩ := index_facts t
  funext x
  show V c main_v88 (((cfg4.win 2).blk t).view.emb x) = V c main_v88 x
  refine congrArg (V c main_v88) (funext fun a => Fin.ext ?_)
  match a with
  | ⟨0, _⟩ => show win4_2.index t (0 : Fin 2) * 1 + 1 * (x 0).val = (x 0).val; omega
  | ⟨1, _⟩ => show win4_2.index t (1 : Fin 2) * 128 + 1 * (x 1).val = (x 1).val; omega

theorem weights2_block (c : Dev nD) (t : Fin cfg4.N) : iblk4 V c 3 t = V c main_arg8 := by
  obtain ⟨-, -, -, -, -, -, e0, e1, -⟩ := index_facts t
  funext x
  show V c main_arg8 (((cfg4.win 3).blk t).view.emb x) = V c main_arg8 x
  refine congrArg (V c main_arg8) (funext fun a => Fin.ext ?_)
  match a with
  | ⟨0, _⟩ => show win4_3.index t (0 : Fin 2) * 128 + 1 * (x 0).val = (x 0).val; omega
  | ⟨1, _⟩ => show win4_3.index t (1 : Fin 2) * 64 + 1 * (x 1).val = (x 1).val; omega

theorem bias2_block (c : Dev nD) (t : Fin cfg4.N) : iblk4 V c 4 t = V c main_v89 := by
  obtain ⟨-, -, -, -, -, -, -, -, e0, e1, -⟩ := index_facts t
  funext x
  show V c main_v89 (((cfg4.win 4).blk t).view.emb x) = V c main_v89 x
  refine congrArg (V c main_v89) (funext fun a => Fin.ext ?_)
  match a with
  | ⟨0, _⟩ => show win4_4.index t (0 : Fin 2) * 1 + 1 * (x 0).val = (x 0).val; omega
  | ⟨1, _⟩ => show win4_4.index t (1 : Fin 2) * 64 + 1 * (x 1).val = (x 1).val; omega

/-- The node features' block at point t is rows 5000 t … of the array. -/
theorem features_block (c : Dev nD) (t : Fin cfg4.N) (r : Fin 5000) (k : Fin 128) (p : Fin 100000)
    (hp : p.val = t.val * 5000 + r.val) :
    (iblk4 V c 0 t : Vec Ideal S5000x128 .f32) (ix2 r k) = (V c main_v87 : S100000x128.Idx → Elt Ideal .f32) (ix2 p k) := by
  obtain ⟨e0, e1, -⟩ := index_facts t
  show V c main_v87 (((cfg4.win 0).blk t).view.emb (ix2 r k)) = V c main_v87 (ix2 p k)
  refine congrArg (V c main_v87) (funext fun a => Fin.ext ?_)
  match a with
  | ⟨0, _⟩ => show win4_0.index t (0 : Fin 2) * 5000 + 1 * r.val = p.val; omega
  | ⟨1, _⟩ => show win4_0.index t (1 : Fin 2) * 128 + 1 * k.val = k.val; omega

/-- WHAT POINT t WRITES BACK is block t of the head of the arrays the launch reads. -/
theorem flushed_eq (c : Dev nD) (t : Fin cfg4.N) :
    (dat4 (F := Ideal) V c).flushed 5 t = ((cfg4.win 5).blk t).view.read (Elt Ideal) (headOf V c) := by
  show (cfg4.win 5).cut (grid4.coords t) ((dat4 (F := Ideal) V c).after 5 t) = _
  rw [after4_5]
  unfold out4_5
  rw [View.canon_unit_zero zero_offsets]
  simp only [View.ld_unit_zero (S := S5000x128) zero_offsets, View.ld_unit_zero (S := S128x128) zero_offsets,
    View.ld_unit_zero (S := S1x128) zero_offsets, View.ld_unit_zero (S := S128x64) zero_offsets,
    View.ld_unit_zero (S := S1x64) zero_offsets]
  rw [weights1_block, bias1_block, weights2_block, bias2_block]
  have hN : cfg4.N = 20 := N_4
  have ht : t.val < 20 := hN ▸ t.isLt
  obtain ⟨-, -, -, -, -, -, -, -, -, -, e0, e1⟩ := index_facts t
  funext y
  have hy0 : (y 0).val < 5000 := (y 0).isLt
  have hy1 : (y 1).val < 64 := (y 1).isLt
  have hemb : ((cfg4.win 5).blk t).view.emb y
      = (ix2 (⟨t.val * 5000 + (y 0).val, by omega⟩ : Fin 100000) (⟨(y 1).val, hy1⟩ : Fin 64) : S100000x64.Idx) := by
    funext a; apply Fin.ext
    match a with
    | ⟨0, _⟩ => show win4_5.index t (0 : Fin 2) * 5000 + 1 * (y 0).val = t.val * 5000 + (y 0).val; omega
    | ⟨1, _⟩ => show win4_5.index t (1 : Fin 2) * 64 + 1 * (y 1).val = (y 1).val; omega
  have hinj : (cfg4.win 5).xinj (grid4.coords t) y = (ix2 (⟨(y 0).val, hy0⟩ : Fin 5000) (⟨(y 1).val, hy1⟩ : Fin 64) : S5000x64.Idx) := by
    funext a; apply Fin.ext
    match a with
    | ⟨0, _⟩ => rfl
    | ⟨1, _⟩ => rfl
  show k4_pay1 (iblk4 V c 0 t) (V c main_arg6) (V c main_v88) (V c main_arg8) (V c main_v89) ((cfg4.win 5).xinj (grid4.coords t) y)
    = headOf V c (((cfg4.win 5).blk t).view.emb y)
  rw [hinj, hemb]
  exact block_entry (V c main_v87) (iblk4 V c 0 t) (V c main_arg6) (V c main_v88) (V c main_arg8) (V c main_v89) _ _
    (fun k => features_block V c t _ k _ rfl) _

/-- An index of the output array is in point t's block iff each coordinate is in the block's range on its axis. -/
theorem mem_blk (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v90).slice (win4_5.rect t)).set ↔ _
  rw [View.set_slice_whole, Rect.mem_set_unit]
  exact Iff.rfl

/-- THE BLOCKS TILE THE ARRAY: row i of the output is in the block of point i / 5000, which is written back. -/
theorem cover (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, -, -, e0, e1⟩ := index_facts t
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- THE OUTPUT ARRAY after the launch is the head of the arrays the launch reads, as it finds them. -/
theorem final (c : Dev nD) :
    (dat4 (F := Ideal) V c).arrAt 5 cfg4.N
      = Cert.Gcn.head (V c main_v87) (V c main_arg6) (V c main_v88) (V c main_arg8) (V c main_v89) :=
  (dat4 (F := Ideal) V c).arrAt_eq_of_cover 5 (headOf V c) (fun t _ => flushed_eq V c t) cover

end Cert.Gcn.Region4

end
-- ==== Proof.KernelValue.lean ====
/-
  What the kernel program leaves in its result buffer, as a function of the ten argument arrays, at the ideal values:
  the buffer contents at the segment boundaries W1 … W13 are followed from the launch to the return. A kernel launch
  replaces its output array by the whole-array function of its input arrays that its twenty row blocks make up (a
  matrix product, a bias-and-clamp step, or the classifier head); a stretch of host operations replaces the buffers it
  writes by its operations' composed values; everything else is carried along. Composed, the result is the network
  function of the arguments.
-/
import proofs.«150230_j59674275610738_1_alg».proof.Proof.Gen.KernelIdeal.Frame
import proofs.«150230_j59674275610738_1_alg».proof.Proof.KernelStretches
import proofs.«150230_j59674275610738_1_alg».proof.Proof.GcnModel
import proofs.«150230_j59674275610738_1_alg».proof.Proof.MatmulRegion0
import proofs.«150230_j59674275610738_1_alg».proof.Proof.BiasReluRegion1
import proofs.«150230_j59674275610738_1_alg».proof.Proof.MatmulRegion2
import proofs.«150230_j59674275610738_1_alg».proof.Proof.BiasReluRegion3
import proofs.«150230_j59674275610738_1_alg».proof.Proof.HeadRegion4

set_option maxRecDepth 16384

noncomputable section

namespace Cert.Gcn.KernelValue

open Cert.KernelIdeal Cert.KernelIdeal.Gen
open Idealize.ShloMosaic Idealize.ShloMosaic.TcCoe Idealize.SL.Sem
open Cert.Gcn Cert.Gcn.Graph

variable (m : (ℓ : Loc nD τ sig) → Buf (Elt Ideal) ℓ) (ρ : Dev nD → PrngReg) (c : Dev nD)

/-! ## Up to the first launch: the arguments as launched, the edge list cut in two -/

theorem W1_arg0 : W1 m ρ c (Proc.devRef .tc main_arg0) = (m ((c : Thread nD τ).loc main_arg0)) := Stretches.kept0_arg0 (W0 m ρ c)
theorem W1_arg2 : W1 m ρ c (Proc.devRef .tc main_arg2) = (m ((c : Thread nD τ).loc main_arg2)) := Stretches.kept0_arg2 (W0 m ρ c)
theorem W1_arg3 : W1 m ρ c (Proc.devRef .tc main_arg3) = (m ((c : Thread nD τ).loc main_arg3)) := Stretches.kept0_arg3 (W0 m ρ c)
theorem W1_arg4 : W1 m ρ c (Proc.devRef .tc main_arg4) = (m ((c : Thread nD τ).loc main_arg4)) := Stretches.kept0_arg4 (W0 m ρ c)
theorem W1_arg5 : W1 m ρ c (Proc.devRef .tc main_arg5) = (m ((c : Thread nD τ).loc main_arg5)) := Stretches.kept0_arg5 (W0 m ρ c)
theorem W1_v1 : W1 m ρ c (Proc.devRef .tc main_v1) = sources (m ((c : Thread nD τ).loc main_arg1)) := Stretches.sources_after (W0 m ρ c)
theorem W1_v3 : W1 m ρ c (Proc.devRef .tc main_v3) = targets (m ((c : Thread nD τ).loc main_arg1)) := Stretches.targets_after (W0 m ρ c)

/-! ## The first product -/

theorem W2_v4 : W2 m ρ c (Proc.devRef .tc main_v4) = mm (m ((c : Thread nD τ).loc main_arg0)) (m ((c : Thread nD τ).loc main_arg2)) :=
  (W2_arr m ρ c 2).trans ((Region0.final (V1 m ρ) c).trans (congrArg₂ mm (W1_arg0 m ρ c) (W1_arg2 m ρ c)))
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_v1 : W2 m ρ c (Proc.devRef .tc main_v1) = sources (m ((c : Thread nD τ).loc main_arg1)) := (W2_of_ne m ρ c main_v1 (by decide)).trans (W1_v1 m ρ c)
theorem W2_v3 : W2 m ρ c (Proc.devRef .tc main_v3) = targets (m ((c : Thread nD τ).loc main_arg1)) := (W2_of_ne m ρ c main_v3 (by decide)).trans (W1_v3 m ρ c)

/-! ## The first aggregation and bias row -/

theorem W5_v43 : W5 m ρ c (Proc.devRef .tc main_v43) = aggregate (F := Ideal) (mm (m ((c : Thread nD τ).loc main_arg0)) (m ((c : Thread nD τ).loc main_arg2))) (sources (m ((c : Thread nD τ).loc main_arg1))) (targets (m ((c : Thread nD τ).loc main_arg1))) := by
  refine (Stretches.aggregate1_after (W2 m ρ c)).trans ?_
  rw [W2_v4, W2_v1, W2_v3]
theorem W5_v44 : W5 m ρ c (Proc.devRef .tc main_v44) = asRow (m ((c : Thread nD τ).loc main_arg3)) := by
  refine (Stretches.biasRow1_after (W2 m ρ c)).trans ?_
  rw [W2_arg3]; exact shapeCast_row _ _
theorem W5_arg4 : W5 m ρ c (Proc.devRef .tc main_arg4) = (m ((c : Thread nD τ).loc main_arg4)) := (Stretches.kept1_arg4 (W2 m ρ c)).trans (W2_arg4 m ρ c)
theorem W5_arg5 : W5 m ρ c (Proc.devRef .tc main_arg5) = (m ((c : Thread nD τ).loc main_arg5)) := (Stretches.kept1_arg5 (W2 m ρ c)).trans (W2_arg5 m ρ c)
theorem W5_v1 : W5 m ρ c (Proc.devRef .tc main_v1) = sources (m ((c : Thread nD τ).loc main_arg1)) := (Stretches.kept1_v1 (W2 m ρ c)).trans (W2_v1 m ρ c)
theorem W5_v3 : W5 m ρ c (Proc.devRef .tc main_v3) = targets (m ((c : Thread nD τ).loc main_arg1)) := (Stretches.kept1_v3 (W2 m ρ c)).trans (W2_v3 m ρ c)

/-! ## The first layer's output, and the second product -/

theorem W6_v45 : W6 m ρ c (Proc.devRef .tc main_v45) = layer (m ((c : Thread nD τ).loc main_arg0)) (m ((c : Thread nD τ).loc main_arg1)) (m ((c : Thread nD τ).loc main_arg2)) (m ((c : Thread nD τ).loc main_arg3)) :=
  (W6_arr m ρ c 2).trans ((Region1.final (V5 m ρ) c).trans (congrArg₂ biasRelu (W5_v43 m ρ c) (W5_v44 m ρ c)))
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)
theorem W6_v1 : W6 m ρ c (Proc.devRef .tc main_v1) = sources (m ((c : Thread nD τ).loc main_arg1)) := (W6_of_ne m ρ c main_v1 (by decide)).trans (W5_v1 m ρ c)
theorem W6_v3 : W6 m ρ c (Proc.devRef .tc main_v3) = targets (m ((c : Thread nD τ).loc main_arg1)) := (W6_of_ne m ρ c main_v3 (by decide)).trans (W5_v3 m ρ c)

theorem W7_v46 : W7 m ρ c (Proc.devRef .tc main_v46) = mm (layer (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((Region2.final (V6 m ρ) c).trans (congrArg₂ mm (W6_v45 m ρ c) (W6_arg4 m ρ c)))
theorem W7_arg5 : W7 m ρ c (Proc.devRef .tc main_arg5) = (m ((c : Thread nD τ).loc main_arg5)) := (W7_of_ne m ρ c main_arg5 (by decide)).trans (W6_arg5 m ρ c)
theorem W7_v1 : W7 m ρ c (Proc.devRef .tc main_v1) = sources (m ((c : Thread nD τ).loc main_arg1)) := (W7_of_ne m ρ c main_v1 (by decide)).trans (W6_v1 m ρ c)
theorem W7_v3 : W7 m ρ c (Proc.devRef .tc main_v3) = targets (m ((c : Thread nD τ).loc main_arg1)) := (W7_of_ne m ρ c main_v3 (by decide)).trans (W6_v3 m ρ c)

/-! ## The second aggregation, bias row and layer output -/

theorem W10_v85 : W10 m ρ c (Proc.devRef .tc main_v85) = aggregate (F := Ideal) (mm (layer (m ((c : Thread nD τ).loc main_arg0)) (m ((c : Thread nD τ).loc main_arg1)) (m ((c : Thread nD τ).loc main_arg2)) (m ((c : Thread nD τ).loc main_arg3))) (m ((c : Thread nD τ).loc main_arg4))) (sources (m ((c : Thread nD τ).loc main_arg1))) (targets (m ((c : Thread nD τ).loc main_arg1))) := by
  refine (Stretches.aggregate2_after (W7 m ρ c)).trans ?_
  rw [W7_v46, W7_v1, W7_v3]
theorem W10_v86 : W10 m ρ c (Proc.devRef .tc main_v86) = asRow (m ((c : Thread nD τ).loc main_arg5)) := by
  refine (Stretches.biasRow2_after (W7 m ρ c)).trans ?_
  rw [W7_arg5]; exact shapeCast_row _ _

theorem W11_v87 : W11 m ρ c (Proc.devRef .tc main_v87) = layer (layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) :=
  (W11_arr m ρ c 2).trans ((Region3.final (V10 m ρ) c).trans (congrArg₂ biasRelu (W10_v85 m ρ c) (W10_v86 m ρ c)))

/-! ## The head's operands, and the result -/

theorem W12_arg6 : W12 m ρ c (Proc.devRef .tc main_arg6) = (m ((c : Thread nD τ).loc main_arg6)) :=
  ((W13_arr m ρ c 1).trans (((dat4 (V12 m ρ) c).arrAt_in 1 rfl _).trans (A_eq4 (V12 m ρ) c 1))).symm.trans (W13_main_arg6 m ρ c)
theorem W12_arg7 : W12 m ρ c (Proc.devRef .tc main_arg7) = (m ((c : Thread nD τ).loc main_arg7)) := (W13_of_ne m ρ c main_arg7 (by decide)).symm.trans (W13_main_arg7 m ρ c)
theorem W12_arg8 : W12 m ρ c (Proc.devRef .tc main_arg8) = (m ((c : Thread nD τ).loc main_arg8)) :=
  ((W13_arr m ρ c 3).trans (((dat4 (V12 m ρ) c).arrAt_in 3 rfl _).trans (A_eq4 (V12 m ρ) c 3))).symm.trans (W13_main_arg8 m ρ c)
theorem W12_arg9 : W12 m ρ c (Proc.devRef .tc main_arg9) = (m ((c : Thread nD τ).loc main_arg9)) := (W13_of_ne m ρ c main_arg9 (by decide)).symm.trans (W13_main_arg9 m ρ c)
theorem W11_arg7 : W11 m ρ c (Proc.devRef .tc main_arg7) = (m ((c : Thread nD τ).loc main_arg7)) := (Stretches.kept4_arg7 (W11 m ρ c)).symm.trans (W12_arg7 m ρ c)
theorem W11_arg9 : W11 m ρ c (Proc.devRef .tc main_arg9) = (m ((c : Thread nD τ).loc main_arg9)) := (Stretches.kept4_arg9 (W11 m ρ c)).symm.trans (W12_arg9 m ρ c)
theorem W12_v87 : W12 m ρ c (Proc.devRef .tc main_v87) = layer (layer (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) := (Stretches.kept4_v87 (W11 m ρ c)).trans (W11_v87 m ρ c)
theorem W12_v88 : W12 m ρ c (Proc.devRef .tc main_v88) = asRow (m ((c : Thread nD τ).loc main_arg7)) := by
  refine (Stretches.biasRow3_after (W11 m ρ c)).trans ?_
  rw [W11_arg7]; exact shapeCast_row _ _
theorem W12_v89 : W12 m ρ c (Proc.devRef .tc main_v89) = asRow (m ((c : Thread nD τ).loc main_arg9)) := by
  refine (Stretches.biasRow4_after (W11 m ρ c)).trans ?_
  rw [W11_arg9]; exact shapeCast_row _ _

/-- THE KERNEL PROGRAM'S RESULT: the network function of the arguments as launched. -/
theorem result : W13 m ρ c (Proc.devRef .tc main_v90)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W13_arr m ρ c 5).trans ((Region4.final (V12 m ρ) c).trans ?_)
  rw [show V12 m ρ c main_v87 = _ from W12_v87 m ρ c, show V12 m ρ c main_arg6 = _ from W12_arg6 m ρ c,
    show V12 m ρ c main_v88 = _ from W12_v88 m ρ c, show V12 m ρ c main_arg8 = _ from W12_arg8 m ρ c,
    show V12 m ρ c main_v89 = _ from W12_v89 m ρ c]
  rfl

end Cert.Gcn.KernelValue

end
-- ==== Proof.HostSoftmax.lean ====
/-
  The reference's logarithm of the row-wise softmax over 100000 rows of 64 entries, as its host operations compose, is
  the specification's `logSoftmax`, entry by entry, at the ideal values.

  Along each row: the host folds the maximum over the row from −∞ and then takes the maximum of that with −∞ once more,
  which changes nothing (−∞ is the least extended real); the shifted entries are the entries minus that; the row sum of
  their exponentials is the host's sum from the initial value 0; then the logarithm and the last subtraction.
-/
import Idealize.ShloMosaic.Lib.ValueIdx
import Idealize.ShloMosaic.Lib.Pipeline.Value
import Idealize.ShloMosaic.PureOps.Ideal.Laws
import proofs.«150230_j59674275610738_1_alg».proof.Proof.GcnSpec
import proofs.«150230_j59674275610738_1_alg».proof.Proof.HostLayers

noncomputable section

open scoped BigOperators

namespace Cert.Gcn

open Idealize.ShloMosaic Idealize.ShloMosaic.ValueIdx

/-! ## The reference's operations composed, for any float values -/

section Composed

variable {F : FTy → Type} [FloatOps F]
variable (z : FVec F ⟨2, ![100000, 64]⟩ .f32)
  (hr : (⟨2, ![100000, 64]⟩ : Shape).ReducesTo [1] ⟨1, ![100000]⟩) (hu : 0 < (⟨0, ![]⟩ : Shape).numel)
  (h0 : (⟨0, ![]⟩ : Shape).BroadcastsInDim ⟨1, ![100000]⟩ (![] : Fin 0 → Fin 1))
  (hc : (⟨1, ![100000]⟩ : Shape).BroadcastsInDim ⟨2, ![100000, 1]⟩ (![0] : Fin 1 → Fin 2))
  (hb : (⟨2, ![100000, 1]⟩ : Shape).BroadcastsInDim ⟨2, ![100000, 64]⟩ (![0, 1] : Fin 2 → Fin 2))

/-- The reference's row maxima: the maximum with −∞ of the fold of the maximum over each row from −∞. -/
def hostRowMax : FVec F ⟨1, ![100000]⟩ .f32 :=
  maximumf (broadcastInDim ⟨1, ![100000]⟩ ![] h0 (constant (F := F) ⟨0, ![]⟩ .f32 0xFF800000#32))
    (Host.reduce (FloatOps.maximumf (F := F) (φ := .f32)) z (constant (F := F) ⟨0, ![]⟩ .f32 0xFF800000#32) hr hu)

/-- The reference's shifted entries. -/
def hostShifted : FVec F ⟨2, ![100000, 64]⟩ .f32 :=
  subf z (broadcastInDim ⟨2, ![100000, 64]⟩ ![0, 1] hb (broadcastInDim ⟨2, ![100000, 1]⟩ ![0] hc (hostRowMax z hr hu h0)))

/-- The reference's logarithm of the row-wise softmax, as its operations compose. -/
def hostLogSoftmax : FVec F ⟨2, ![100000, 64]⟩ .f32 :=
  subf (hostShifted z hr hu h0 hc hb)
    (broadcastInDim ⟨2, ![100000, 64]⟩ ![0, 1] hb
      (Host.log (broadcastInDim ⟨2, ![100000, 1]⟩ ![0] hc
        (Host.reduceAdd (Host.exp (hostShifted z hr hu h0 hc hb)) (constant (F := F) ⟨0, ![]⟩ .f32 0x00000000#32) hr hu))))

end Composed

/-! ## Read at an entry, at the ideal values -/

variable (z : FVec Ideal ⟨2, ![100000, 64]⟩ .f32)
  (hr : (⟨2, ![100000, 64]⟩ : Shape).ReducesTo [1] ⟨1, ![100000]⟩) (hu : 0 < (⟨0, ![]⟩ : Shape).numel)
  (h0 : (⟨0, ![]⟩ : Shape).BroadcastsInDim ⟨1, ![100000]⟩ (![] : Fin 0 → Fin 1))
  (hc : (⟨1, ![100000]⟩ : Shape).BroadcastsInDim ⟨2, ![100000, 1]⟩ (![0] : Fin 1 → Fin 2))
  (hb : (⟨2, ![100000, 1]⟩ : Shape).BroadcastsInDim ⟨2, ![100000, 64]⟩ (![0, 1] : Fin 2 → Fin 2))

/-- The host's fold of the maximum over row `p`, from −∞, is the row's maximum. -/
theorem hostReduceMax_apply (p : Fin 100000) :
    Host.reduce FloatOps.maximumf z (constant (F := Ideal) ⟨0, ![]⟩ .f32 0xFF800000#32) hr hu (ix1 p) = rowMax z p := by
  rw [Host.reduce_eq_fold_single FloatOps.maximumf z _ hr (by decide) hu]
  unfold rowMax
  refine congrArg (fun f => Finset.fold max (Ideal.ofBits .f32 0xFF800000#32) f (Finset.univ : Finset (Fin 64))) ?_
  funext k
  exact congrArg z (funext fun a => Fin.ext (by match a with | ⟨0, _⟩ => rfl | ⟨1, _⟩ => rfl))

/-- The host's sum over row `p`, from 0. -/
theorem hostReduceAdd_apply (y : FVec Ideal ⟨2, ![100000, 64]⟩ .f32) (p : Fin 100000) :
    Host.reduceAdd y (constant (F := Ideal) ⟨0, ![]⟩ .f32 0x00000000#32) hr hu (ix1 p) = ∑ k : Fin 64, y (ix2 p k) := by
  simp only [Host.reduceAdd, Ideal.hostReduceAdd_def]
  rw [Ideal.hostReduceAdd_single hr (by decide), constant_apply, Ideal.ofBits_zero_f32, zero_add]
  refine Finset.sum_congr rfl fun k _ => ?_
  exact congrArg y (funext fun a => Fin.ext (by match a with | ⟨0, _⟩ => rfl | ⟨1, _⟩ => rfl))

theorem hostRowMax_apply (p : Fin 100000) : hostRowMax z hr hu h0 (ix1 p) = rowMax z p := by
  unfold hostRowMax
  rw [maximumf_apply, broadcastInDim_scalar_apply, constant_apply, hostReduceMax_apply, max_negInf]

theorem hostShifted_apply (p : Fin 100000) (o : Fin 64) : hostShifted z hr hu h0 hc hb (ix2 p o) = shifted z p o := by
  unfold hostShifted
  rw [subf_apply, broadcastInDim_cols_apply, broadcastInDim_col_apply, hostRowMax_apply]
  rfl

theorem hostExp_apply {s : Shape} (y : FVec Ideal s .f32) (i : s.Idx) : Host.exp y i = Ideal.exp (y i) := rfl
theorem hostLog_apply {s : Shape} (y : FVec Ideal s .f32) (i : s.Idx) : Host.log y i = Ideal.log (y i) := rfl

theorem hostLogSoftmax_eq : hostLogSoftmax z hr hu h0 hc hb = logSoftmax z := by
  funext i
  obtain ⟨p, o, rfl⟩ : ∃ (p : Fin 100000) (o : Fin 64), i = ix2 p o := ⟨i 0, i 1, eq_ix2 i⟩
  unfold hostLogSoftmax
  rw [subf_apply, broadcastInDim_cols_apply, hostLog_apply, broadcastInDim_col_apply, hostReduceAdd_apply, hostShifted_apply,
    logSoftmax_apply]
  unfold logSoftmaxAt
  refine congrArg (fun s => shifted z p o - Ideal.log s) (Finset.sum_congr rfl fun k _ => ?_)
  rw [hostExp_apply, hostShifted_apply]

end Cert.Gcn

end
-- ==== Proof.RefStages.lean ====
/-
  The reference program's 145 host operations come cut into nine stretches; here is what each stretch leaves in the buffer the
  next one reads, from ANY contents `X` before it — for any float values, since only the dataflow is read:

    the edge list cut in two · the first product · the first layer's graph side · its bias and clamp ·
    the second product · the second layer's graph side · its bias and clamp · the head's two affine layers ·
    the logarithm of the row-wise softmax.

  The graph side of a layer is the SAME named function the kernel program's host stretches apply (the two programs spell
  the same operations, their shape records equal field by field). A stretch leaves untouched every buffer it does not
  write; the arguments, and the two endpoint lists, are carried through the stretches up to where they are read.
  Composed, the result buffer ends at `hostNetwork` of the arguments: the reference's operations as one term over the
  named pieces.
-/
import proofs.«150230_j59674275610738_1_alg».proof.Proof.RefOps
import proofs.«150230_j59674275610738_1_alg».proof.Proof.GraphSide
import proofs.«150230_j59674275610738_1_alg».proof.Proof.HostSoftmax

set_option maxRecDepth 16384

noncomputable section

namespace Cert.Gcn.RefStages

open Cert.ReferenceIdeal Cert.ReferenceIdeal.ValueP Idealize.ShloMosaic Idealize.ShloMosaic.TcCoe Idealize.SL.Sem Idealize.ShloMosaic.StableHlo
open Cert.ReferenceIdeal.Facts₀ Cert.ReferenceIdeal.Facts
open Cert.Gcn Cert.Gcn.Graph

variable {F : FTy → Type} [FloatOps F] [Cert.KernelIdeal.Facts]

/-- Operations run one list after the other. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- Contents carried to a typed reference's buffer and back are the contents (an operation inside a called function
    writes through such a reference, and the next one reads back through it). -/
theorem ofBuf_toBuf {Val : EltTy → Type} {T : BufTy} (x : TRef sig T) (v : T.Contents Val) : x.ofBuf (x.toBuf v) = v := by
  obtain ⟨r, rfl, h1, h2⟩ := x
  rfl

/-! ## What each stretch computes -/

theorem product1_after (X : Valuation τ sig (Elt F)) :
    StableHlo.after product1 X (Proc.devRef .tc main_v4) = Host.dotGeneral dot_S100000x128_S128x128_S100000x128_1_0_0_1_n_n none (X (Proc.devRef .tc main_arg0)) (X (Proc.devRef .tc main_arg2)) := by
  simp only [product1]; after_results_simp <;> (try simp only [ofBuf_toBuf]) <;> rfl

theorem graphSide1_after (X : Valuation τ sig (Elt F)) :
    StableHlo.after graphSide1 X (Proc.devRef .tc main_v43)
      = aggregate (X (Proc.devRef .tc main_v4)) (X (Proc.devRef .tc main_v1)) (X (Proc.devRef .tc main_v3)) := by
  simp only [graphSide1]; after_results_simp <;> (try simp only [ofBuf_toBuf]) <;> rfl

theorem biasClamp1_after (X : Valuation τ sig (Elt F)) :
    StableHlo.after biasClamp1 X (Proc.devRef .tc main_v47)
      = maximumf (addf (X (Proc.devRef .tc main_v43)) (broadcastInDim S100000x128 ![0, 1] bcast_S1x128_S100000x128_0_1 (broadcastInDim S1x128 ![1] bcast_S128_S1x128_1 (X (Proc.devRef .tc main_arg3))))) (broadcastInDim S100000x128 ![] bcast_S_S100000x128 (constant (F := F) S_ .f32 0x00000000#32)) := by
  simp only [biasClamp1]; after_results_simp <;> (try simp only [ofBuf_toBuf]) <;> rfl

theorem product2_after (X : Valuation τ sig (Elt F)) :
    StableHlo.after product2 X (Proc.devRef .tc main_v48) = Host.dotGeneral dot_S100000x128_S128x128_S100000x128_1_0_0_1_n_n none (X (Proc.devRef .tc main_v47)) (X (Proc.devRef .tc main_arg4)) := by
  simp only [product2]; after_results_simp <;> (try simp only [ofBuf_toBuf]) <;> rfl

theorem graphSide2_after (X : Valuation τ sig (Elt F)) :
    StableHlo.after graphSide2 X (Proc.devRef .tc main_v87)
      = aggregate (X (Proc.devRef .tc main_v48)) (X (Proc.devRef .tc main_v1)) (X (Proc.devRef .tc main_v3)) := by
  simp only [graphSide2]; after_results_simp <;> (try simp only [ofBuf_toBuf]) <;> rfl

theorem biasClamp2_after (X : Valuation τ sig (Elt F)) :
    StableHlo.after biasClamp2 X (Proc.devRef .tc main_v91)
      = maximumf (addf (X (Proc.devRef .tc main_v87)) (broadcastInDim S100000x128 ![0, 1] bcast_S1x128_S100000x128_0_1 (broadcastInDim S1x128 ![1] bcast_S128_S1x128_1 (X (Proc.devRef .tc main_arg5))))) (broadcastInDim S100000x128 ![] bcast_S_S100000x128 (constant (F := F) S_ .f32 0x00000000#32)) := by
  simp only [biasClamp2]; after_results_simp <;> (try simp only [ofBuf_toBuf]) <;> rfl

theorem headLayers_after (X : Valuation τ sig (Elt F)) :
    StableHlo.after headLayers X (Proc.devRef .tc main_v99)
      = addf (Host.dotGeneral dot_S100000x128_S128x64_S100000x64_1_0_0_1_n_n none
          (addf (Host.dotGeneral dot_S100000x128_S128x128_S100000x128_1_0_0_1_n_n none (X (Proc.devRef .tc main_v91)) (X (Proc.devRef .tc main_arg6))) (broadcastInDim S100000x128 ![0, 1] bcast_S1x128_S100000x128_0_1 (broadcastInDim S1x128 ![1] bcast_S128_S1x128_1 (X (Proc.devRef .tc main_arg7)))))
          (X (Proc.devRef .tc main_arg8))) (broadcastInDim S100000x64 ![0, 1] bcast_S1x64_S100000x64_0_1 (broadcastInDim S1x64 ![1] bcast_S64_S1x64_1 (X (Proc.devRef .tc main_arg9)))) := by
  simp only [headLayers]; after_results_simp <;> (try simp only [ofBuf_toBuf]) <;> rfl

theorem rowSoftmax_after (X : Valuation τ sig (Elt F)) :
    StableHlo.after rowSoftmax X (Proc.devRef .tc main_v100)
      = hostLogSoftmax (X (Proc.devRef .tc main_v99)) reducesTo_S100000x64_S100000_d1 h_S_
          bcast_S_S100000 bcast_S100000_S100000x1_0 bcast_S100000x1_S100000x64_0_1 := by
  simp only [rowSoftmax]; after_results_simp <;> (try simp only [ofBuf_toBuf]) <;> rfl

/-! ## What is carried through the stretches -/

theorem kept_cutEdges_arg0 (X : Valuation τ sig (Elt F)) :
    StableHlo.after cutEdges (X) (Proc.devRef .tc main_arg0) = X (Proc.devRef .tc main_arg0) := by
  simp only [cutEdges]; after_results_simp
theorem kept_cutEdges_arg2 (X : Valuation τ sig (Elt F)) :
    StableHlo.after cutEdges (X) (Proc.devRef .tc main_arg2) = X (Proc.devRef .tc main_arg2) := by
  simp only [cutEdges]; after_results_simp
theorem sources_through_product1 (X : Valuation τ sig (Elt F)) :
    StableHlo.after product1 (StableHlo.after cutEdges (X)) (Proc.devRef .tc main_v1) = sources (X (Proc.devRef .tc main_arg1)) := by
  simp only [cutEdges, product1]; after_results_simp <;> (try simp only [ofBuf_toBuf]) <;> rfl
theorem targets_through_product1 (X : Valuation τ sig (Elt F)) :
    StableHlo.after product1 (StableHlo.after cutEdges (X)) (Proc.devRef .tc main_v3) = targets (X (Proc.devRef .tc main_arg1)) := by
  simp only [cutEdges, product1]; after_results_simp <;> (try simp only [ofBuf_toBuf]) <;> rfl
theorem kept_graphSide1_arg3 (X : Valuation τ sig (Elt F)) :
    StableHlo.after graphSide1 (StableHlo.after product1 (StableHlo.after cutEdges (X))) (Proc.devRef .tc main_arg3) = X (Proc.devRef .tc main_arg3) := by
  simp only [cutEdges, product1, graphSide1]; after_results_simp
theorem kept_biasClamp1_arg4 (X : Valuation τ sig (Elt F)) :
    StableHlo.after biasClamp1 (StableHlo.after graphSide1 (StableHlo.after product1 (StableHlo.after cutEdges (X)))) (Proc.devRef .tc main_arg4) = X (Proc.devRef .tc main_arg4) := by
  simp only [cutEdges, product1, graphSide1, biasClamp1]; after_results_simp
theorem sources_through_product2 (X : Valuation τ sig (Elt F)) :
    StableHlo.after product2 (StableHlo.after biasClamp1 (StableHlo.after graphSide1 (StableHlo.after product1 (StableHlo.after cutEdges (X))))) (Proc.devRef .tc main_v1) = sources (X (Proc.devRef .tc main_arg1)) := by
  simp only [cutEdges, product1, graphSide1, biasClamp1, product2]; after_results_simp <;> (try simp only [ofBuf_toBuf]) <;> rfl
theorem targets_through_product2 (X : Valuation τ sig (Elt F)) :
    StableHlo.after product2 (StableHlo.after biasClamp1 (StableHlo.after graphSide1 (StableHlo.after product1 (StableHlo.after cutEdges (X))))) (Proc.devRef .tc main_v3) = targets (X (Proc.devRef .tc main_arg1)) := by
  simp only [cutEdges, product1, graphSide1, biasClamp1, product2]; after_results_simp <;> (try simp only [ofBuf_toBuf]) <;> rfl
theorem kept_graphSide2_arg5 (X : Valuation τ sig (Elt F)) :
    StableHlo.after graphSide2 (StableHlo.after product2 (StableHlo.after biasClamp1 (StableHlo.after graphSide1 (StableHlo.after product1 (StableHlo.after cutEdges (X)))))) (Proc.devRef .tc main_arg5) = X (Proc.devRef .tc main_arg5) := by
  simp only [cutEdges, product1, graphSide1, biasClamp1, product2, graphSide2]; after_results_simp
theorem kept_biasClamp2_arg6 (X : Valuation τ sig (Elt F)) :
    StableHlo.after biasClamp2 (StableHlo.after graphSide2 (StableHlo.after product2 (StableHlo.after biasClamp1 (StableHlo.after graphSide1 (StableHlo.after product1 (StableHlo.after cutEdges (X))))))) (Proc.devRef .tc main_arg6) = X (Proc.devRef .tc main_arg6) := by
  simp only [cutEdges, product1, graphSide1, biasClamp1, product2, graphSide2, biasClamp2]; after_results_simp
theorem kept_biasClamp2_arg7 (X : Valuation τ sig (Elt F)) :
    StableHlo.after biasClamp2 (StableHlo.after graphSide2 (StableHlo.after product2 (StableHlo.after biasClamp1 (StableHlo.after graphSide1 (StableHlo.after product1 (StableHlo.after cutEdges (X))))))) (Proc.devRef .tc main_arg7) = X (Proc.devRef .tc main_arg7) := by
  simp only [cutEdges, product1, graphSide1, biasClamp1, product2, graphSide2, biasClamp2]; after_results_simp
theorem kept_biasClamp2_arg8 (X : Valuation τ sig (Elt F)) :
    StableHlo.after biasClamp2 (StableHlo.after graphSide2 (StableHlo.after product2 (StableHlo.after biasClamp1 (StableHlo.after graphSide1 (StableHlo.after product1 (StableHlo.after cutEdges (X))))))) (Proc.devRef .tc main_arg8) = X (Proc.devRef .tc main_arg8) := by
  simp only [cutEdges, product1, graphSide1, biasClamp1, product2, graphSide2, biasClamp2]; after_results_simp
theorem kept_biasClamp2_arg9 (X : Valuation τ sig (Elt F)) :
    StableHlo.after biasClamp2 (StableHlo.after graphSide2 (StableHlo.after product2 (StableHlo.after biasClamp1 (StableHlo.after graphSide1 (StableHlo.after product1 (StableHlo.after cutEdges (X))))))) (Proc.devRef .tc main_arg9) = X (Proc.devRef .tc main_arg9) := by
  simp only [cutEdges, product1, graphSide1, biasClamp1, product2, graphSide2, biasClamp2]; after_results_simp

/-! ## The operations composed -/

/-- One layer, as the reference's operations compose. -/
def hostLayer (x : (⟨S100000x128, .f32⟩ : BufTy).Contents (Elt F)) (e : (⟨S2x1600000, .i32⟩ : BufTy).Contents (Elt F))
    (w : (⟨S128x128, .f32⟩ : BufTy).Contents (Elt F)) (bias : (⟨S128, .f32⟩ : BufTy).Contents (Elt F)) :
    (⟨S100000x128, .f32⟩ : BufTy).Contents (Elt F) :=
  maximumf (addf (aggregate (Host.dotGeneral dot_S100000x128_S128x128_S100000x128_1_0_0_1_n_n none x w) (sources e) (targets e)) (broadcastInDim S100000x128 ![0, 1] bcast_S1x128_S100000x128_0_1 (broadcastInDim S1x128 ![1] bcast_S128_S1x128_1 bias))) (broadcastInDim S100000x128 ![] bcast_S_S100000x128 (constant (F := F) S_ .f32 0x00000000#32))

/-- The reference, as its operations compose. -/
def hostNetwork (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (wp1 : (⟨S128x128, .f32⟩ : BufTy).Contents (Elt F)) (bp1 : (⟨S128, .f32⟩ : BufTy).Contents (Elt F))
    (wp2 : (⟨S128x64, .f32⟩ : BufTy).Contents (Elt F)) (bp2 : (⟨S64, .f32⟩ : BufTy).Contents (Elt F)) :
    (⟨S100000x64, .f32⟩ : BufTy).Contents (Elt F) :=
  hostLogSoftmax
    (addf (Host.dotGeneral dot_S100000x128_S128x64_S100000x64_1_0_0_1_n_n none
        (addf (Host.dotGeneral dot_S100000x128_S128x128_S100000x128_1_0_0_1_n_n none (hostLayer (hostLayer x e w1 b1) e w2 b2) wp1) (broadcastInDim S100000x128 ![0, 1] bcast_S1x128_S100000x128_0_1 (broadcastInDim S1x128 ![1] bcast_S128_S1x128_1 bp1)))
        wp2) (broadcastInDim S100000x64 ![0, 1] bcast_S1x64_S100000x64_0_1 (broadcastInDim S1x64 ![1] bcast_S64_S1x64_1 bp2)))
    reducesTo_S100000x64_S100000_d1 h_S_ bcast_S_S100000 bcast_S100000_S100000x1_0 bcast_S100000x1_S100000x64_0_1

/-- After all 145 operations the result buffer holds `hostNetwork` of the argument buffers. -/
theorem result_after (X : Valuation τ sig (Elt F)) :
    StableHlo.after Cert.ReferenceIdeal.ValueP.ops X (Proc.devRef .tc main_v100)
      = hostNetwork (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) := by
  rw [ops_eq]
  simp only [after_append]
  rw [rowSoftmax_after, headLayers_after, biasClamp2_after, graphSide2_after, product2_after, biasClamp1_after, graphSide1_after,
    product1_after, kept_cutEdges_arg0, kept_cutEdges_arg2, sources_through_product1, targets_through_product1,
    kept_graphSide1_arg3, kept_biasClamp1_arg4, sources_through_product2, targets_through_product2, kept_graphSide2_arg5,
    kept_biasClamp2_arg6, kept_biasClamp2_arg7, kept_biasClamp2_arg8, kept_biasClamp2_arg9]
  rfl

end Cert.Gcn.RefStages

end
-- ==== Proof.RefRun.lean ====
/-
  The reference program's run: every weakly fair execution of its @main — a sequence of 145 host operations — terminates
  without a fault, with every buffer at the fold of the operations' results over its launch contents. So the result
  buffer ends at the operations' composed term of the arguments (`hostNetwork`), and the ten argument buffers, which no
  operation writes, end as launched.
-/
import proofs.«150230_j59674275610738_1_alg».proof.Proof.RefOps
import proofs.«150230_j59674275610738_1_alg».proof.Proof.RefStages

set_option maxRecDepth 16384

noncomputable section

namespace Cert.Gcn.RefRun

open Cert.ReferenceIdeal Cert.ReferenceIdeal.ValueP Idealize.ShloMosaic Idealize.ShloMosaic.TcCoe Idealize.SL.Sem Idealize.ShloMosaic.StableHlo
open Cert.Gcn Cert.Gcn.RefStages

variable {F : FTy → Type} [FloatOps F] [Cert.KernelIdeal.Facts]

/-! ## No operation writes an argument -/

theorem kept_arg0 (X : Valuation τ sig (Elt F)) :
    StableHlo.after (ops : List (HloOp τ sig (Elt F))) X (Proc.devRef .tc main_arg0) = X (Proc.devRef .tc main_arg0) := by
  after_results_simp
theorem kept_arg1 (X : Valuation τ sig (Elt F)) :
    StableHlo.after (ops : List (HloOp τ sig (Elt F))) X (Proc.devRef .tc main_arg1) = X (Proc.devRef .tc main_arg1) := by
  after_results_simp
theorem kept_arg2 (X : Valuation τ sig (Elt F)) :
    StableHlo.after (ops : List (HloOp τ sig (Elt F))) X (Proc.devRef .tc main_arg2) = X (Proc.devRef .tc main_arg2) := by
  after_results_simp
theorem kept_arg3 (X : Valuation τ sig (Elt F)) :
    StableHlo.after (ops : List (HloOp τ sig (Elt F))) X (Proc.devRef .tc main_arg3) = X (Proc.devRef .tc main_arg3) := by
  after_results_simp
theorem kept_arg4 (X : Valuation τ sig (Elt F)) :
    StableHlo.after (ops : List (HloOp τ sig (Elt F))) X (Proc.devRef .tc main_arg4) = X (Proc.devRef .tc main_arg4) := by
  after_results_simp
theorem kept_arg5 (X : Valuation τ sig (Elt F)) :
    StableHlo.after (ops : List (HloOp τ sig (Elt F))) X (Proc.devRef .tc main_arg5) = X (Proc.devRef .tc main_arg5) := by
  after_results_simp
theorem kept_arg6 (X : Valuation τ sig (Elt F)) :
    StableHlo.after (ops : List (HloOp τ sig (Elt F))) X (Proc.devRef .tc main_arg6) = X (Proc.devRef .tc main_arg6) := by
  after_results_simp
theorem kept_arg7 (X : Valuation τ sig (Elt F)) :
    StableHlo.after (ops : List (HloOp τ sig (Elt F))) X (Proc.devRef .tc main_arg7) = X (Proc.devRef .tc main_arg7) := by
  after_results_simp
theorem kept_arg8 (X : Valuation τ sig (Elt F)) :
    StableHlo.after (ops : List (HloOp τ sig (Elt F))) X (Proc.devRef .tc main_arg8) = X (Proc.devRef .tc main_arg8) := by
  after_results_simp
theorem kept_arg9 (X : Valuation τ sig (Elt F)) :
    StableHlo.after (ops : List (HloOp τ sig (Elt F))) X (Proc.devRef .tc main_arg9) = X (Proc.devRef .tc main_arg9) := by
  after_results_simp

/-! ## The run -/

/-- On every device, from any memory with zero counters: every weakly fair execution of @main terminates with the
    result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100)
        = hostNetwork (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v100).trans (result_after (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c))⟩)
    (run_seq scopedRefs_eq scopedSems_eq defs main (fun _ => ops) main_eq (fun _ => ops_sub) m ρ)

end Cert.Gcn.RefRun

end
-- ==== Proof.RefValue.lean ====
/-
  The reference's operations composed (`hostNetwork`) are the network function, at the ideal values: each host matrix
  product is `mm`; a bias vector spread over the rows and added, then the maximum with the zero array, is `biasRelu`
  (so a layer of the reference is a layer of the specification — the graph side in the middle is the same named function
  on both sides and is never opened); a product plus a spread bias vector is `affine`; and the last fifteen operations
  are the logarithm of the row-wise softmax.
-/
import proofs.«150230_j59674275610738_1_alg».proof.Proof.RefStages
import proofs.«150230_j59674275610738_1_alg».proof.Proof.GcnModel
import proofs.«150230_j59674275610738_1_alg».proof.Proof.HostLayers
import proofs.«150230_j59674275610738_1_alg».proof.Proof.HostSoftmax

noncomputable section

namespace Cert.Gcn.RefValue

open Cert.ReferenceIdeal Idealize.ShloMosaic
open Cert.Gcn Cert.Gcn.Graph Cert.Gcn.RefStages

variable [Cert.KernelIdeal.Facts]
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))

/-- A layer of the reference is a layer of the specification. -/
theorem hostLayer_eq : hostLayer (F := Ideal) x0 x1 x2 x3 = layer x0 x1 x2 x3 := by
  unfold hostLayer layer
  rw [host_biasRelu, host_dot dot_S100000x128_S128x128_S100000x128_1_0_0_1_n_n rfl]

/-- THE REFERENCE'S RESULT TERM is the network function of its arguments. -/
theorem hostNetwork_eq : hostNetwork (F := Ideal) x0 x1 x2 x3 x4 x5 x6 x7 x8 x9 = network x0 x1 x2 x3 x4 x5 x6 x7 x8 x9 := by
  unfold hostNetwork network head
  rw [hostLogSoftmax_eq, host_affine dot_S100000x128_S128x64_S100000x64_1_0_0_1_n_n rfl, host_affine dot_S100000x128_S128x128_S100000x128_1_0_0_1_n_n rfl, hostLayer_eq, hostLayer_eq]

end Cert.Gcn.RefValue

end
-- ==== Proof.lean ====
/-
  The certificate: a two-layer graph convolution with a classifier head, computed by five tiled kernel launches among
  host operations, against its plain reference.

  Frames. Each program terminates without a fault and leaves its arguments as launched: the two kernel programs by
  their frame certificates (five kernel regions, each with every grid point's block staged, computed and written
  back), the reference by its run of host operations.

  The idealization rewrote nothing in the kernel program, so there is nothing to preserve.

  Values. At the ideal values both programs end with the SAME function of the ten arguments in their result buffers, the
  network function: node features times weights (each launch's twenty row blocks of 5000 rows make up the whole product,
  and rounding the operands to a shorter format is the identity), aggregated over the edges by the same host operations
  in both programs, plus the bias row and clamped at zero, twice; then two affine layers and, along every row of 64, the
  logarithm of the softmax — where the reference's extra maximum with −∞ changes nothing. No law of the extended reals
  beyond "−∞ is least" and "0 + s = s" is used, so the inputs' finiteness is never opened.
-/
import proofs.«150230_j59674275610738_1_alg».proof.Defs
import proofs.«150230_j59674275610738_1_alg».proof.Proof.Gen.Kernel
import proofs.«150230_j59674275610738_1_alg».proof.Proof.Gen.Kernel.Skeleton
import proofs.«150230_j59674275610738_1_alg».proof.Proof.Gen.Kernel.Launch
import proofs.«150230_j59674275610738_1_alg».proof.Proof.Gen.Kernel.Points
import proofs.«150230_j59674275610738_1_alg».proof.Proof.Gen.Kernel.Frame
import proofs.«150230_j59674275610738_1_alg».proof.Proof.Gen.KernelIdeal
import proofs.«150230_j59674275610738_1_alg».proof.Proof.Gen.KernelIdeal.Skeleton
import proofs.«150230_j59674275610738_1_alg».proof.Proof.Gen.KernelIdeal.Launch
import proofs.«150230_j59674275610738_1_alg».proof.Proof.Gen.KernelIdeal.Points
import proofs.«150230_j59674275610738_1_alg».proof.Proof.Gen.KernelIdeal.Frame
import proofs.«150230_j59674275610738_1_alg».proof.Proof.Gen.ReferenceIdeal
import proofs.«150230_j59674275610738_1_alg».proof.Proof.Gen.Pre_finite_inputs
import proofs.«150230_j59674275610738_1_alg».proof.Proof.KernelRun
import proofs.«150230_j59674275610738_1_alg».proof.Proof.KernelValue
import proofs.«150230_j59674275610738_1_alg».proof.Proof.RefOps
import proofs.«150230_j59674275610738_1_alg».proof.Proof.RefStages
import proofs.«150230_j59674275610738_1_alg».proof.Proof.RefRun
import proofs.«150230_j59674275610738_1_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Gcn.RefRun.run (F := Ideal) m ρ)

/-- Both idealized programs end with the network function of the arguments in their result buffers. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Gcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Gcn.KernelValue.result m ρ c), (h c).2⟩)
      (Cert.KernelIdeal.Named.run_result (F := Ideal) m ρ)
  · refine (θ_run Cert.ReferenceIdeal.defs _ _).mono (fun r h c => ⟨(h c).1.trans ?_, (h c).2⟩)
      (Cert.Gcn.RefRun.run (F := Ideal) m' ρ')
    obtain ⟨e0, e1, e2, e3, e4, e5, e6, e7, e8, e9⟩ := hagree c
    rw [Cert.Gcn.RefValue.hostNetwork_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
